-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1024x100000 : Shape := ⟨2, ![1024, 100000]⟩
abbrev S100000x64 : Shape := ⟨2, ![100000, 64]⟩
abbrev S100000x1 : Shape := ⟨2, ![100000, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  reducesTo_S_S_d : S_.ReducesTo [] S_

variable [Facts]

def fn_part1 {F : FTy → Type} [FloatOps F] (main_arg7 : FVec F S100000x1 .f32) (main_arg8 : FVec F S_ .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S100000x1 .f32 := Host.absf main_arg7
  let main_cst_6 : FVec F S_ .f32 := constant S_ .f32 0x7F800000#32
  let main_v20 : FVec F S100000x1 .f32 := broadcastInDim S100000x1 ![] bcast_S_S100000x1 main_cst_6
  let main_v21 : IVec S100000x1 1 := cmpf .olt main_v19 main_v20
  let main_c_7 : IVec S_ 1 := constantI S_ 1 1#1
  let main_v22 : IVec S_ 1 := (fun x v => Host.reduce IntOp.andi x v reducesTo_S100000x1_S_d0_1 h_S_) main_v21 main_c_7
  let main_v23 : IVec S_ 1 := andi main_v18 main_v22
  let main_v24 : FVec F S_ .f32 := Host.absf main_arg8
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : IVec S1024 32) (main_arg1 : IVec S1024 32) (main_arg2 : IVec S1024x100000 32) (main_arg3 : FVec F S100000x64 .f32) (main_arg4 : FVec F S100000x64 .f32) (main_arg5 : FVec F S100000x64 .f32) (main_arg6 : FVec F S100000x1 .f32) (main_arg7 : FVec F S100000x1 .f32) (main_arg8 : FVec F S_ .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg5
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x1 .f32 := Host.absf main_arg6
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg7 main_arg8 main_v13 main_v16
-- ==== Kernel.lean ====
abbrev S1024 : Shape := ⟨1, ![1024]⟩
abbrev S1024x100000 : Shape := ⟨2, ![1024, 100000]⟩
abbrev S100000x64 : Shape := ⟨2, ![100000, 64]⟩
abbrev S100000x1 : Shape := ⟨2, ![100000, 1]⟩
abbrev S_ : Shape := ⟨0, ![]⟩
abbrev S100000x65 : Shape := ⟨2, ![100000, 65]⟩
abbrev S101376x128 : Shape := ⟨2, ![101376, 128]⟩
abbrev S1024x64 : Shape := ⟨2, ![1024, 64]⟩
abbrev S512x3072 : Shape := ⟨2, ![512, 3072]⟩
abbrev S3072x128 : Shape := ⟨2, ![3072, 128]⟩
abbrev S512x64 : Shape := ⟨2, ![512, 64]⟩
abbrev S512x128 : Shape := ⟨2, ![512, 128]⟩
abbrev S512x1 : Shape := ⟨2, ![512, 1]⟩
abbrev S1024x1 : Shape := ⟨2, ![1024, 1]⟩
abbrev S1024x2 : Shape := ⟨2, ![1024, 2]⟩

abbrev nBuf : Space → Nat
  | .hbm => 71
  | .vmem => 7
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024x100000, .i32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S100000x64, .bf16⟩
  | .hbm, ⟨10, _⟩ => ⟨S_, .bf16⟩
  | .hbm, ⟨11, _⟩ => ⟨S100000x1, .bf16⟩
  | .hbm, ⟨12, _⟩ => ⟨S100000x65, .bf16⟩
  | .hbm, ⟨13, _⟩ => ⟨S_, .i32⟩
  | .hbm, ⟨14, _⟩ => ⟨S_, .bf16⟩
  | .hbm, ⟨15, _⟩ => ⟨S101376x128, .bf16⟩
  | .hbm, ⟨16, _⟩ => ⟨S1024x64, .f32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1024x64, .f32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x64, .f32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024x1, .i32⟩
  | .hbm, ⟨46, _⟩ => ⟨S1024x1, .i32⟩
  | .hbm, ⟨47, _⟩ => ⟨S1024x2, .i32⟩
  | .hbm, ⟨48, _⟩ => ⟨S1024, .f32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S_, .i32⟩
  | .hbm, ⟨57, _⟩ => ⟨S1024, .i32⟩
  | .hbm, ⟨58, _⟩ => ⟨S1024, .i32⟩
  | .hbm, ⟨59, _⟩ => ⟨S1024x1, .i32⟩
  | .hbm, ⟨60, _⟩ => ⟨S1024x1, .i32⟩
  | .hbm, ⟨61, _⟩ => ⟨S1024x2, .i32⟩
  | .hbm, ⟨62, _⟩ => ⟨S1024, .f32⟩
  | .hbm, ⟨63, _⟩ => ⟨S1024x64, .f32⟩
  | .hbm, ⟨64, _⟩ => ⟨S1024x64, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S1024, .f32⟩
  | .local _ .vmem, ⟨0, _⟩ => ⟨S512x3072, .i32⟩
  | .local _ .vmem, ⟨1, _⟩ => ⟨S512x3072, .i32⟩
  | .local _ .vmem, ⟨2, _⟩ => ⟨S3072x128, .bf16⟩
  | .local _ .vmem, ⟨3, _⟩ => ⟨S3072x128, .bf16⟩
  | .local _ .vmem, ⟨4, _⟩ => ⟨S512x64, .f32⟩
  | .local _ .vmem, ⟨5, _⟩ => ⟨S512x64, .f32⟩
  | .local _ .vmem, ⟨6, _⟩ => ⟨S512x128, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 33], ![false, false]⟩

def k0_cond4 (i : grid0.Coords) : BitVec 1 :=
  let arg1 : BitVec 32 := BitVec.ofNat 32 (i 1).val
  let c32_i32_4 : BitVec 32 := 32#32
  let v9 : BitVec 1 := Scalar.cmpi .eq arg1 c32_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3072x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  bcast_S_S100000x1 : S_.BroadcastsInDim S100000x1 (![] : Fin 0 → Fin S100000x1.rank)
  concatenates_S100000x64_S100000x1_S100000x65_d1 : Shape.Concatenates [S100000x64, S100000x1] S100000x65 1
  pads_S100000x65_S101376x128_013760_0630 : S100000x65.Pads (![0, 0] : Fin 2 → Nat) ![1376, 63] ![0, 0] S101376x128
  h_S_ : 0 < S_.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x3072_d1_w32 : S512x3072.Iotas .tc 32 [1]
  inb_S512x3072_S512x3072_0_0 : ∀ a, (![0, 0] : Fin 2 → Nat) a + S512x3072.size a ≤ S512x3072.size a
  h_S512x3072 : 0 < S512x3072.numel
  natLt_1_32 : 1 < 32
  inb_S3072x128_S3072x128_0_0 : ∀ a, (![0, 0] : Fin 2 → Nat) a + S3072x128.size a ≤ S3072x128.size a
  h_S3072x128 : 0 < S3072x128.numel
  shapeCasts_S3072x128_S3072x128 : S3072x128.ShapeCasts S3072x128
  slices_S512x128_o0_0_S512x64 : S512x128.Slices ![0, 0] S512x64
  slices_S512x128_o0_64_S512x1 : S512x128.Slices ![0, 64] S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  reducesTo_S1024x64_S1024_d1 : S1024x64.ReducesTo [1] S1024
  dot_S512x3072_S3072x128_S512x128_1_0_0_1_n_n_wf : DotDims.WF S512x3072 S3072x128 S512x128 [1] [0] [0] [1] [] []
  gather_S100000x64_S1024x1_S1024x64_1_0_n_n_0_1_164_wf : GatherDims.WF S100000x64 S1024x1 S1024x64 [1] [0] [] [0] [] 1 ![1, 64]
  gather_S100000x1_S1024x2_S1024_n_01_n_n_01_1_11_wf : GatherDims.WF S100000x1 S1024x2 S1024 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x3072.size a < S1024x100000.size a
  hwx0_0 : ∀ i : grid0.Coords, EltTy.bits .i32 = 32 ∨ (Rect.unit (s := S1024x100000) (fun a => cc0_transform_0 i a * S512x3072.size a) (fun a => (Pipeline.Clip.of (cc0_transform_0 i a) (S512x3072.size a) (S1024x100000.size a)).extent (S512x3072.size a)) fun a => Pipeline.Clip.inb (Pipeline.Clip.ok_of (hstart0_0 i a))).WholeWords (EltTy.packing .i32)
  hwxs0_0 : ∀ i : grid0.Coords, EltTy.bits .i32 = 32 ∨ (Rect.unit (s := S512x3072) (fun _ => 0) (fun a => (Pipeline.Clip.of (cc0_transform_0 i a) (S512x3072.size a) (S1024x100000.size a)).extent (S512x3072.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x128.size a ≤ S101376x128.size a
  hwx0_1 : ∀ i : grid0.Coords, EltTy.bits .bf16 = 32 ∨ (Rect.block (s := S101376x128) S3072x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S1024x64.size a
  hwx0_2 : ∀ i : grid0.Coords, EltTy.bits .f32 = 32 ∨ (Rect.block (s := S1024x64) S512x64.size (cc0_transform_2 i) (hinb0_2 i)).WholeWords (EltTy.packing .f32)

variable [Facts₀]

def dot_S512x3072_S3072x128_S512x128_1_0_0_1_n_n : DotDims S512x3072 S3072x128 S512x128 where
  lhsContracting := [1]
  rhsContracting := [0]
  lhsNonContracting := [0]
  rhsNonContracting := [1]
  lhsBatch := []
  rhsBatch := []
  wf := dot_S512x3072_S3072x128_S512x128_1_0_0_1_n_n_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def gather_S100000x1_S1024x2_S1024_n_01_n_n_01_1_11 : GatherDims S100000x1 S1024x2 S1024 where
  offsetDims := []
  collapsedSliceDims := [0, 1]
  operandBatchingDims := []
  startIndicesBatchingDims := []
  startIndexMap := [0, 1]
  indexVectorDim := 1
  sliceSizes := ![1, 1]
  wf := gather_S100000x1_S1024x2_S1024_n_01_n_n_01_1_11_wf

abbrev win0_0 : Pipeline.Window sig grid0 :=
  Pipeline.Window.ofSpecClip (Memref.whole main_arg2) S512x3072.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S3072x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S1024 : Shape := ⟨1, ![1024]⟩
abbrev S1024x100000 : Shape := ⟨2, ![1024, 100000]⟩
abbrev S100000x64 : Shape := ⟨2, ![100000, 64]⟩
abbrev S100000x1 : Shape := ⟨2, ![100000, 1]⟩
abbrev S_ : Shape := ⟨0, ![]⟩
abbrev S1024x1 : Shape := ⟨2, ![1024, 1]⟩
abbrev S1024x64 : Shape := ⟨2, ![1024, 64]⟩
abbrev S1024x2 : Shape := ⟨2, ![1024, 2]⟩

abbrev nBuf : Space → Nat
  | .hbm => 73
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024x100000, .i32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S_, .i32⟩
  | .hbm, ⟨10, _⟩ => ⟨S1024x100000, .i32⟩
  | .hbm, ⟨11, _⟩ => ⟨S1024x100000, .i1⟩
  | .hbm, ⟨12, _⟩ => ⟨S1024x100000, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x64, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x64, .f32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024x1, .i32⟩
  | .hbm, ⟨48, _⟩ => ⟨S1024x1, .i32⟩
  | .hbm, ⟨49, _⟩ => ⟨S1024x2, .i32⟩
  | .hbm, ⟨50, _⟩ => ⟨S1024, .f32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024x1, .i32⟩
  | .hbm, ⟨62, _⟩ => ⟨S1024x1, .i32⟩
  | .hbm, ⟨63, _⟩ => ⟨S1024x2, .i32⟩
  | .hbm, ⟨64, _⟩ => ⟨S1024, .f32⟩
  | .hbm, ⟨65, _⟩ => ⟨S1024x64, .f32⟩
  | .hbm, ⟨66, _⟩ => ⟨S1024x64, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  bcast_S_S1024x100000 : S_.BroadcastsInDim S1024x100000 (![] : Fin 0 → Fin S1024x100000.rank)
  reducesTo_S1024x100000_S1024_d1 : S1024x100000.ReducesTo [1] S1024
  h_S_ : 0 < S_.numel
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S_S1024 : S_.BroadcastsInDim S1024 (![] : Fin 0 → Fin S1024.rank)
  concatenates_S1024x1_S1024x1_S1024x2_d1 : Shape.Concatenates [S1024x1, S1024x1] S1024x2 1
  reducesTo_S1024x64_S1024_d1 : S1024x64.ReducesTo [1] S1024
  dot_S1024x100000_S100000x64_S1024x64_1_0_0_1_n_n_wf : DotDims.WF S1024x100000 S100000x64 S1024x64 [1] [0] [0] [1] [] []
  gather_S100000x64_S1024x1_S1024x64_1_0_n_n_0_1_164_wf : GatherDims.WF S100000x64 S1024x1 S1024x64 [1] [0] [] [0] [] 1 ![1, 64]
  gather_S100000x1_S1024x2_S1024_n_01_n_n_01_1_11_wf : GatherDims.WF S100000x1 S1024x2 S1024 [] [0, 1] [] [0, 1] [] 1 ![1, 1]

variable [Facts₀]

def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def gather_S100000x1_S1024x2_S1024_n_01_n_n_01_1_11 : GatherDims S100000x1 S1024x2 S1024 where
  offsetDims := []
  collapsedSliceDims := [0, 1]
  operandBatchingDims := []
  startIndicesBatchingDims := []
  startIndexMap := [0, 1]
  indexVectorDim := 1
  sliceSizes := ![1, 1]
  wf := gather_S100000x1_S1024x2_S1024_n_01_n_n_01_1_11_wf

class Facts : Prop extends Facts₀ where

variable [Facts]
-- ==== Proof.PoolCommonK.lean ====
/-
  What the three control cases of the pooling kernel's body share. The grid is (2, 33): the first axis picks a block of
  512 batch rows, the second walks 33 column blocks of 3072 items. The body keeps a running sum in a scratch buffer: at
  column block 0 it first zeroes the scratch; at every column block but the last it adds the block's product of the
  0/1 mask of positive entries with the augmented embedding block; at the last column block (index 32) it adds the same
  product with the mask also cut to the columns inside the array, and then stores the quotient of the first 64 columns
  of the running sum by its column 64 into the output block. The four branch conditions are functions of the second
  grid coordinate alone, decided here over the 66 grid points in closed form.
-/
import proofs.«105519_j24464133718086_2_alg».proof.Proof.Gen.Kernel.Frame
import proofs.«105519_j24464133718086_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch conditions, as functions of the grid coordinates -/

/-- "the column block is the first" (the scratch is zeroed). -/
abbrev condFirst (i : grid0.Coords) : Prop := (Scalar.cmpi .ne (Scalar.extui (Scalar.cmpi .eq (BitVec.ofNat 32 (i 1).val) 0#32)) 0#32) = 1#1
/-- "the column block is the last" (the masked accumulation). -/
abbrev condLast (i : grid0.Coords) : Prop := (Scalar.cmpi .ne (Scalar.extui (Scalar.cmpi .eq (BitVec.ofNat 32 (i 1).val) 32#32)) 0#32) = 1#1
/-- "the column block is not the last" (the plain accumulation). -/
abbrev condInner (i : grid0.Coords) : Prop := (Scalar.cmpi .ne (Scalar.extui (Scalar.cmpi .ne (BitVec.ofNat 32 (i 1).val) 32#32)) 0#32) = 1#1
/-- "the column block is the last" again (the quotient is stored). -/
abbrev condStore (i : grid0.Coords) : Prop := k0_cond4 i = 1#1

theorem hFirst : ∀ t : Fin cfg0.N, condFirst (grid0.coords t) ↔ t.val % 33 = 0 :=
  (by decide +kernel : ∀ t : Fin grid0.N, condFirst (grid0.coords t) ↔ t.val % 33 = 0)
theorem hLast : ∀ t : Fin cfg0.N, condLast (grid0.coords t) ↔ t.val % 33 = 32 :=
  (by decide +kernel : ∀ t : Fin grid0.N, condLast (grid0.coords t) ↔ t.val % 33 = 32)
theorem hInner : ∀ t : Fin cfg0.N, condInner (grid0.coords t) ↔ ¬ t.val % 33 = 32 :=
  (by decide +kernel : ∀ t : Fin grid0.N, condInner (grid0.coords t) ↔ ¬ t.val % 33 = 32)
theorem hStore : ∀ t : Fin cfg0.N, condStore (grid0.coords t) ↔ t.val % 33 = 32 :=
  (by decide +kernel : ∀ t : Fin grid0.N, condStore (grid0.coords t) ↔ t.val % 33 = 32)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last column block the output window is idle and is not written back. -/
theorem idle2 : ∀ t : Fin cfg0.N, ¬ t.val % 33 = 32 → cfg0.idle 2 (grid0.coords t) = true := by decide +kernel
theorem noFlush2 : ∀ t : Fin cfg0.N, ¬ t.val % 33 = 32 → (cfg0.win 2).flush t = false := by decide +kernel
/-- At the last column block the output window is live. -/
theorem live2 : ∀ t : Fin cfg0.N, t.val % 33 = 32 → cfg0.idle 2 (grid0.coords t) = false := by decide +kernel

/-! ## The memrefs the body is called with -/

abbrev ms0 (t : Fin cfg0.N) : Memref sig .tc .vmem S512x3072 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3072x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x64 .f32 := win0_2.stage (cfg0.slots t 2)
abbrev hs2 (t : Fin cfg0.N) : (ms2 t).IsWhole := hstage0_2 ((cfg0.slots t 2).cast nbuf0_2)
/-- The running sum's scratch buffer. -/
abbrev scM : Memref sig .tc .vmem S512x128 .f32 := Memref.whole cc0_scratch0
abbrev VS : View sig .tc .vmem S512x128 .f32 := scM.view
abbrev VO : View sig .tc .vmem S512x64 .f32 := (Memref.whole cc0_stg2_0 : Memref sig .tc .vmem S512x64 .f32).view

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Pool

end
-- ==== Proof.PoolRunFirstK.lean ====
/-
  The body at a first column block (second grid coordinate 0): the scratch is zeroed and the block's plain
  mask-times-embeddings product is added to it; the output buffer is not touched. The stores into the scratch are found
  by running the body symbolically.
-/
import proofs.«105519_j24464133718086_2_alg».proof.Proof.PoolCommonK

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole memrefs — the two input buffers at their contents, the output's at contents handed back untouched, the
    scratch at anything — the body runs to the continuation with the scratch holding the listed stores. -/
noncomputable def runFirst (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : condFirst i) (hc1 : ¬condLast i) (hc2 : condInner i) (hc3 : ¬condStore i)
    (x0 : Vec F S512x3072 .i32) (x1 : Vec F S3072x128 .bf16) :
    { LS : List (View.Piece (Elt F) S512x128 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Pool

end
-- ==== Proof.PoolRunInnerK.lean ====
/-
  The body at an inner column block (second grid coordinate strictly between 0 and 32): the block's plain
  mask-times-embeddings product is added to the scratch, which arrives holding the running sum of the blocks before;
  the output buffer is not touched.
-/
import proofs.«105519_j24464133718086_2_alg».proof.Proof.PoolCommonK

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runInner (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : ¬condLast i) (hc2 : condInner i) (hc3 : ¬condStore i)
    (x0 : Vec F S512x3072 .i32) (x1 : Vec F S3072x128 .bf16) (xs : Vec F S512x128 .f32) :
    { LS : List (View.Piece (Elt F) S512x128 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Pool

end
-- ==== Proof.PoolRunLastK.lean ====
/-
  The body at a last column block (second grid coordinate 32): the block's product with the mask cut to the columns
  inside the array is added to the scratch, and the quotient of the running sum's first 64 columns by its column 64 is
  stored into the output buffer, which arrives holding anything.
-/
import proofs.«105519_j24464133718086_2_alg».proof.Proof.PoolCommonK

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) :
    Σ' (L2 : List (View.Piece (Elt F) S512x64 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Pool

end
-- ==== Proof.PoolDataK.lean ====
/-
  The pooling kernel's frame: what the scratch buffer and the staging buffers hold after each grid point, the region's
  invariant, the body's obligation at every point, and the run of the whole program.

  The grid's 66 points are (row block, column block) in row-major order, so point `t` is column block `t mod 33` of row
  block `t / 33`. The scratch holds the running sum of the row block's products: after a first column block the
  product added to zero, after any other the product added to what the point before left — at a last column block
  with the mask cut to the columns inside the array. The first operand's last column block overhangs its array: the
  staging buffer then holds the block on the columns inside the array and words nobody names past them. Those words
  never reach a result, because the cut mask is zero exactly on those columns: the masked accumulation is one function
  of the buffer's named part, whatever the rest holds (`lastAcc_indep`).
-/
import proofs.«105519_j24464133718086_2_alg».proof.Proof.PoolRunFirstK
import proofs.«105519_j24464133718086_2_alg».proof.Proof.PoolRunInnerK
import proofs.«105519_j24464133718086_2_alg».proof.Proof.PoolRunLastK
import Idealize.ShloMosaic.Lib.Pipeline.Value

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs' stores leave, read back -/

theorem cover_first (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : condFirst i) (hc1 : ¬condLast i) (hc2 : condInner i) (hc3 : ¬condStore i)
    (x0 : Vec F S512x3072 .i32) (x1 : Vec F S3072x128 .bf16) (y : S512x128.Idx) :
    ∃ pc ∈ (runFirst c i arg2 harg2 arg3 harg3 arg4 harg4 arg5 harg5 hc0 hc1 hc2 hc3 x0 x1).1, y ∈ pc.1.set :=
  View.cover_of_tiledL _ S512x128.size (by sl_kernel_rfl) y

theorem cover_inner (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : ¬condLast i) (hc2 : condInner i) (hc3 : ¬condStore i)
    (x0 : Vec F S512x3072 .i32) (x1 : Vec F S3072x128 .bf16) (xs : Vec F S512x128 .f32) (y : S512x128.Idx) :
    ∃ pc ∈ (runInner c i arg2 harg2 arg3 harg3 arg4 harg4 arg5 harg5 hc0 hc1 hc2 hc3 x0 x1 xs).1, y ∈ pc.1.set :=
  View.cover_of_tiledL _ S512x128.size (by sl_kernel_rfl) y

theorem cover_last_acc (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) (y : S512x128.Idx) :
    ∃ pc ∈ (runLast c i arg2 harg2 arg3 harg3 arg4 harg4 arg5 harg5 hc0 hc1 hc2 hc3 x0 x1 xs).2.1, y ∈ pc.1.set :=
  View.cover_of_tiledL _ S512x128.size (by sl_kernel_rfl) y

theorem cover_last_out (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) (y : S512x64.Idx) :
    ∃ pc ∈ (runLast c i arg2 harg2 arg3 harg3 arg4 harg4 arg5 harg5 hc0 hc1 hc2 hc3 x0 x1 xs).1, y ∈ pc.1.set :=
  View.cover_of_tiledL _ S512x64.size (by sl_kernel_rfl) y

theorem hz2 : (![0, 0] : Fin 2 → Nat) = fun _ => 0 := funext fun a => by fin_cases a <;> rfl

/-- A first column block leaves the product added to zero. -/
theorem read_first (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : condFirst i) (hc1 : ¬condLast i) (hc2 : condInner i) (hc3 : ¬condStore i)
    (x0 : Vec F S512x3072 .i32) (x1 : Vec F S3072x128 .bf16) :
    VS.read (Elt F) (VS.writes (Elt F) VS.junk (runFirst c i arg2 harg2 arg3 harg3 arg4 harg4 arg5 harg5 hc0 hc1 hc2 hc3 x0 x1).1)
      = k0_pay3 x0 (k0_pay1 (F := F)) x1 := by
  rw [View.read_writes_eq_canon _ _ _ (cover_first c i arg2 harg2 arg3 harg3 arg4 harg4 arg5 harg5 hc0 hc1 hc2 hc3 x0 x1)]
  unfold runFirst; dsimp only
  sl_unfold_run_names
  rw [View.canon_cons_unit_zero hz2]
  simp only [View.readAt_eq_ld, harg2.read_unread, harg3.read_unread, View.ld_unit_zero (S := S512x3072) hz2,
    View.ld_unit_zero (S := S3072x128) hz2]
  rw [View.readCov_unit_zero (S := S512x128) arg5.view hz2]

/-- An inner column block leaves the product added to what the scratch held. -/
theorem read_inner (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : ¬condLast i) (hc2 : condInner i) (hc3 : ¬condStore i)
    (x0 : Vec F S512x3072 .i32) (x1 : Vec F S3072x128 .bf16) (xs : Vec F S512x128 .f32) :
    VS.read (Elt F) (VS.writes (Elt F) VS.junk (runInner c i arg2 harg2 arg3 harg3 arg4 harg4 arg5 harg5 hc0 hc1 hc2 hc3 x0 x1 xs).1)
      = k0_pay3 x0 xs x1 := by
  rw [View.read_writes_eq_canon _ _ _ (cover_inner c i arg2 harg2 arg3 harg3 arg4 harg4 arg5 harg5 hc0 hc1 hc2 hc3 x0 x1 xs)]
  unfold runInner; dsimp only
  sl_unfold_run_names
  rw [View.canon_cons_unit_zero hz2]
  simp only [View.readAt_eq_ld, harg2.read_unread, harg3.read_unread, harg5.read_unread, View.ld_unit_zero (S := S512x3072) hz2,
    View.ld_unit_zero (S := S3072x128) hz2, View.ld_unit_zero (S := S512x128) hz2]

/-- A last column block leaves in the scratch the masked product added to what it held, -/
theorem read_last_acc (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) :
    VS.read (Elt F) (VS.writes (Elt F) VS.junk (runLast c i arg2 harg2 arg3 harg3 arg4 harg4 arg5 harg5 hc0 hc1 hc2 hc3 x0 x1 xs).2.1)
      = k0_pay2 i x0 xs x1 := by
  rw [View.read_writes_eq_canon _ _ _ (cover_last_acc c i arg2 harg2 arg3 harg3 arg4 harg4 arg5 harg5 hc0 hc1 hc2 hc3 x0 x1 xs)]
  unfold runLast; dsimp only
  sl_unfold_run_names
  rw [View.canon_cons_unit_zero hz2]
  simp only [View.readAt_eq_ld, harg2.read_unread, harg3.read_unread, harg5.read_unread, View.ld_unit_zero (S := S512x3072) hz2,
    View.ld_unit_zero (S := S3072x128) hz2, View.ld_unit_zero (S := S512x128) hz2]

/-- and in the output's buffer the quotient read off that sum. -/
theorem read_last_out (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) :
    VO.read (Elt F) (VO.writes (Elt F) VO.junk (runLast c i arg2 harg2 arg3 harg3 arg4 harg4 arg5 harg5 hc0 hc1 hc2 hc3 x0 x1 xs).1)
      = k0_pay4 (k0_pay2 i x0 xs x1) := by
  rw [View.read_writes_eq_canon _ _ _ (cover_last_out c i arg2 harg2 arg3 harg3 arg4 harg4 arg5 harg5 hc0 hc1 hc2 hc3 x0 x1 xs)]
  unfold runLast; dsimp only
  sl_unfold_run_names
  rw [View.canon_cons_unit_zero hz2]
  simp only [View.readAt_eq_ld, harg2.read_unread, harg3.read_unread, harg5.read_unread, View.ld_unit_zero (S := S512x3072) hz2,
    View.ld_unit_zero (S := S3072x128) hz2, View.ld_unit_zero (S := S512x128) hz2]
  rw [View.readCov_unit_zero (S := S512x128) arg5.view hz2]

/-! ## The first operand's staging buffer -/

/-- Away from the last column block the first operand's block lies inside its array. -/
theorem clip_none : ∀ t : Fin cfg0.N, ¬ t.val % 33 = 32 → ∀ a, win0_0.clip (grid0.coords t) a = none := by decide +kernel
/-- At a last column block the part inside the array is all 512 rows and the first 1696 columns, and the block is
    column block 32. -/
theorem xsize_last : ∀ t : Fin cfg0.N, t.val % 33 = 32 →
    win0_0.xsize (grid0.coords t) 0 = 512 ∧ win0_0.xsize (grid0.coords t) 1 = 1696 ∧ ((grid0.coords t) 1).val = 32 := by decide +kernel

/-- What the first operand's staging buffer is taken to hold at point `t`: the block on its part inside the array,
    the zero word past the array's last column. -/
def posBuf (c : Dev nD) (t : Fin cfg0.N) : Vec F S512x3072 .i32 :=
  win0_0.fill (grid0.coords t) (fun _ => (0#32 : BitVec 32)) (iblk m c 0 t)

/-- A block inside the array fills the whole buffer: nothing of what the buffer held before is left. -/
theorem fill_inside (c : Dev nD) (t : Fin cfg0.N) (h : ¬ t.val % 33 = 32) (d : S512x3072.Idx → BitVec 32) :
    win0_0.fill (grid0.coords t) d (iblk m c 0 t) = posBuf m c t := by
  funext j
  have hm : win0_0.moved (grid0.coords t) j = true :=
    (win0_0.moved_iff _ j).mpr fun a => by have := (j a).isLt; unfold Window.xsize; rw [clip_none t h a]; exact this
  unfold posBuf Window.fill; rw [dif_pos hm, dif_pos hm]

/-- From column 1696 of column block 32 on, the column's number in the array is 100000 or more. -/
theorem col_outside : ∀ j : Fin 3072, 1696 ≤ j.val →
    IntOp.cmpi .slt (IntOp.addi (BitVec.ofNat 32 (0 * 3072 + j.val)) (IntOp.muli (BitVec.ofNat 32 32) 3072#32)) 100000#32 = 0#1 := by decide +kernel

/-- The mask of the last column block — "positive, and the column is inside the array" — does not see the words past
    the array's last column: there its second conjunct is zero. -/
theorem mask_indep (t : Fin cfg0.N) (h : t.val % 33 = 32) (d d' : S512x3072.Idx → BitVec 32)
    (g : (win0_0.xblock (grid0.coords t)).Idx → BitVec 32) :
    andi (cmpi .sgt (win0_0.fill (grid0.coords t) d g) (broadcast S512x3072 0#32))
        (cmpi .slt (addi (iota .tc S512x3072 32 [1] iota_S512x3072_d1_w32) (broadcast S512x3072 (Scalar.muli (BitVec.ofNat 32 ((grid0.coords t) 1).val) 3072#32))) (broadcast S512x3072 100000#32))
      = andi (cmpi .sgt (win0_0.fill (grid0.coords t) d' g) (broadcast S512x3072 0#32))
        (cmpi .slt (addi (iota .tc S512x3072 32 [1] iota_S512x3072_d1_w32) (broadcast S512x3072 (Scalar.muli (BitVec.ofNat 32 ((grid0.coords t) 1).val) 3072#32))) (broadcast S512x3072 100000#32)) := by
  obtain ⟨h0, h1, hk⟩ := xsize_last t h
  funext j
  by_cases hm : win0_0.moved (grid0.coords t) j = true
  · show IntOp.andi (IntOp.cmpi .sgt (win0_0.fill (grid0.coords t) d g j) 0#32) _ = IntOp.andi (IntOp.cmpi .sgt (win0_0.fill (grid0.coords t) d' g j) 0#32) _
    unfold Window.fill; rw [dif_pos hm, dif_pos hm]
  · have hj : 1696 ≤ (j 1).val := by
      by_contra hlt
      apply hm
      refine (win0_0.moved_iff _ j).mpr fun a => ?_
      match a with
      | ⟨0, _⟩ => show (j 0).val < win0_0.xsize (grid0.coords t) 0; rw [h0]; exact (j 0).isLt
      | ⟨1, _⟩ => show (j 1).val < win0_0.xsize (grid0.coords t) 1; rw [h1]; omega
    have hj' : (j 1).val < 3072 := (j 1).isLt
    have hv : IntOp.cmpi .slt (IntOp.addi (BitVec.ofNat 32 (0 * 3072 + (j 1).val)) (IntOp.muli (BitVec.ofNat 32 ((grid0.coords t) 1).val) 3072#32)) 100000#32 = 0#1 := by
      rw [hk]
      exact col_outside ⟨(j 1).val, hj'⟩ hj
    show IntOp.andi _ (IntOp.cmpi .slt (IntOp.addi (BitVec.ofNat 32 (0 * 3072 + (j 1).val)) (IntOp.muli (BitVec.ofNat 32 ((grid0.coords t) 1).val) 3072#32)) 100000#32)
      = IntOp.andi _ (IntOp.cmpi .slt (IntOp.addi (BitVec.ofNat 32 (0 * 3072 + (j 1).val)) (IntOp.muli (BitVec.ofNat 32 ((grid0.coords t) 1).val) 3072#32)) 100000#32)
    rw [hv]; unfold IntOp.andi; rw [BitVec.and_zero, BitVec.and_zero]

/-- So the masked accumulation is one function of the buffer's part inside the array. -/
theorem lastAcc_indep (c : Dev nD) (t : Fin cfg0.N) (h : t.val % 33 = 32) (d : S512x3072.Idx → BitVec 32)
    (xs : Vec F S512x128 .f32) (x1 : Vec F S3072x128 .bf16) :
    k0_pay2 (grid0.coords t) (win0_0.fill (grid0.coords t) d (iblk m c 0 t)) xs x1 = k0_pay2 (grid0.coords t) (posBuf m c t) xs x1 := by
  unfold k0_pay2 posBuf; dsimp only
  rw [mask_indep t h d (fun _ => (0#32 : BitVec 32)) (iblk m c 0 t)]
  rfl

/-! ## The running sum, point by point -/

/-- What the scratch holds after the body at position `n`. -/
def sumAt (c : Dev nD) : (n : ℕ) → n < cfg0.N → Vec F S512x128 .f32
  | 0, hn => k0_pay3 (posBuf m c ⟨0, hn⟩) (k0_pay1 (F := F)) (iblk m c 1 ⟨0, hn⟩)
  | n + 1, hn =>
    if (n + 1) % 33 = 0 then k0_pay3 (posBuf m c ⟨n + 1, hn⟩) (k0_pay1 (F := F)) (iblk m c 1 ⟨n + 1, hn⟩)
    else if (n + 1) % 33 = 32 then
      k0_pay2 (grid0.coords ⟨n + 1, hn⟩) (posBuf m c ⟨n + 1, hn⟩) (sumAt c n (Nat.lt_of_succ_lt hn)) (iblk m c 1 ⟨n + 1, hn⟩)
    else k0_pay3 (posBuf m c ⟨n + 1, hn⟩) (sumAt c n (Nat.lt_of_succ_lt hn)) (iblk m c 1 ⟨n + 1, hn⟩)

theorem sumAt_first (c : Dev nD) (t : Fin cfg0.N) (h0 : t.val % 33 = 0) :
    sumAt m c t.val t.isLt = k0_pay3 (posBuf m c t) (k0_pay1 (F := F)) (iblk m c 1 t) := by
  obtain ⟨n, hn⟩ := t
  cases n with
  | zero => rfl
  | succ n => exact (if_pos h0)

theorem sumAt_inner (c : Dev nD) (t : Fin cfg0.N) (h0 : ¬t.val % 33 = 0) (h1 : ¬t.val % 33 = 32) :
    sumAt m c t.val t.isLt = k0_pay3 (posBuf m c t) (sumAt m c (t.val - 1) (Nat.lt_of_le_of_lt (Nat.sub_le _ _) t.isLt)) (iblk m c 1 t) := by
  obtain ⟨n, hn⟩ := t
  cases n with
  | zero => exact absurd (Nat.zero_mod _) h0
  | succ n => exact (if_neg h0).trans (if_neg h1)

theorem sumAt_last (c : Dev nD) (t : Fin cfg0.N) (h1 : t.val % 33 = 32) :
    sumAt m c t.val t.isLt = k0_pay2 (grid0.coords t) (posBuf m c t) (sumAt m c (t.val - 1) (Nat.lt_of_le_of_lt (Nat.sub_le _ _) t.isLt)) (iblk m c 1 t) := by
  obtain ⟨n, hn⟩ := t
  cases n with
  | zero => exact absurd h1 (show ¬ (0 % 33 = 32) by decide)
  | succ n => exact (if_neg (by dsimp only at h1 ⊢; omega)).trans (if_pos h1)

/-- What the output's staging buffer holds after a last column block: the quotient read off the running sum. (At
    the other points the value is never consulted: the window is idle there and is not written back.) -/
def outAt (c : Dev nD) (t : Fin cfg0.N) : Vec F S512x64 .f32 := k0_pay4 (sumAt m c t.val t.isLt)

/-- The region's invariant before position `n`: before the first point the scratch at anything, afterwards at the
    running sum the point before left; the generator register at some state. -/
def PhiS (c : Dev nD) : (n : ℕ) → n ≤ cfg0.N → sProp 𝕄
  | 0, _ => Pipeline.ΦA spec0 c
  | n + 1, hn => iprop(iprop(owns (c : Thread nD τ) scM fullShare (sumAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (sumAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (sumAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => posBuf m c t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = posBuf m c t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

/-- The first operand's buffer, just fetched: the block on its part inside the array, anything past it. -/
theorem before0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]
/-- The second operand's buffer holds its block. -/
theorem before1 (c : Dev nD) (t : Fin cfg0.N) (d) : (dats m 0 c).before 1 t d = iblk m c 1 t :=
  before0_1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the first operand's buffer stated on its part inside the array only. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live0 t]
  show iprop(∃ d, owns (c : Thread nD τ) (ms0 t) fullShare (win0_0.fill (grid0.coords t) d (win0_0.cut (grid0.coords t) ((dats m 0 c).after 0 t)))) = _
  rw [after0]; unfold posBuf; rw [win0_0.cut_fill]

theorem leaves1 (c : Dev nD) (t : Fin cfg0.N) :
    (dats m 0 c).leaves 1 t = owns (c : Thread nD τ) (ms1 t) fullShare (iblk m c 1 t) := by
  unfold Dat.leaves; rw [live1 t]
  show owns (c : Thread nD τ) (ms1 t) fullShare ((dats m 0 c).after 1 t) = _
  rw [after1]

theorem leaves2_live (c : Dev nD) (t : Fin cfg0.N) (h : t.val % 33 = 32) :
    (dats m 0 c).leaves 2 t = owns (c : Thread nD τ) (ms2 t) fullShare (outAt m c t) := by
  unfold Dat.leaves; rw [live2 t h]
  show owns (c : Thread nD τ) (ms2 t) fullShare ((dats m 0 c).after 2 t) = _
  rw [after2]

theorem leaves2_idle (c : Dev nD) (t : Fin cfg0.N) (h : ¬ t.val % 33 = 32) :
    (dats m 0 c).leaves 2 t = iprop(∃ d, owns (c : Thread nD τ) (ms2 t) fullShare ((dats m 0 c).before 2 t d)) :=
  Dat.leaves_idle (dats m 0 c) 2 t (idle2 t h) (noFlush2 t h)

set_option maxHeartbeats 4800000 in
/-- The body at any point: which of the three cases the point is in is read off its position; the case's run applies
    at what the buffers hold; the scratch is handed over at the running sum so far (at anything before the first
    point) and taken back at the new one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 66 := lt_of_lt_of_eq t.isLt (show cfg0.N = 66 from N_0)
  by_cases h0 : t.val % 33 = 0
  · have h1 : ¬ t.val % 33 = 32 := by omega
    rw [leaves2_idle m c t h1, sumAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hFirst t).mpr h0) (fun h => h1 ((hLast t).mp h)) ((hInner t).mpr h1) (fun h => h1 ((hStore t).mp h)) (win0_0.fill (grid0.coords t) d0 (iblk m c 0 t)) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro
          refine (View.read_writes_of_cover _ _ VS VS.junk _ (cover_first _ _ _ _ _ _ _ _ _ _ _ _ _ _ _ _)).trans ?_
          rw [read_first, fill_inside m c t h1 d0]
        iexact Hg
      isplitl [Ho]; · iexact Ho
      isplitl [H0]; · iexists d0; iexact H0
      isplitl [H1]; · iexact H1
      iexists d2; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hFirst t).mpr h0) (fun h => h1 ((hLast t).mp h)) ((hInner t).mpr h1) (fun h => h1 ((hStore t).mp h)) (win0_0.fill (grid0.coords t) d0 (iblk m c 0 t)) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro
          refine (View.read_writes_of_cover _ _ VS VS.junk _ (cover_first _ _ _ _ _ _ _ _ _ _ _ _ _ _ _ _)).trans ?_
          rw [read_first, fill_inside m c t h1 d0]
        iexact Hg
      isplitl [Ho]; · iexact Ho
      isplitl [H0]; · iexists d0; iexact H0
      isplitl [H1]; · iexact H1
      iexists d2; iexact H2
  · have hz : t.val ≠ 0 := fun h => h0 (by rw [h])
    rw [PhiS_castSucc m c t, PhiS_pos m c _ _ hz]
    by_cases h1 : t.val % 33 = 32
    · rw [leaves2_live m c t h1]; unfold outAt; rw [sumAt_last m c t h1]
      iintro ⟨⟨HS, Hg⟩, Ho, ⟨%d0, H0⟩, ⟨%d1, H1⟩, ⟨%d2, H2⟩⟩
      iapply ((runLast c (grid0.coords t) _ _ _ _ _ _ _ _ (fun h => h0 ((hFirst t).mp h)) ((hLast t).mpr h1) (fun h => (hInner t).mp h h1) ((hStore t).mpr h1) (win0_0.fill (grid0.coords t) d0 (iblk m c 0 t)) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro
          refine (View.read_writes_of_cover _ _ VS VS.junk _ (cover_last_acc _ _ _ _ _ _ _ _ _ _ _ _ _ _ _ _ _)).trans ?_
          rw [read_last_acc, lastAcc_indep m c t h1 d0]
        iexact Hg
      isplitl [Ho]; · iexact Ho
      isplitl [H0]; · iexists d0; iexact H0
      isplitl [H1]; · iexact H1
      unfold owns; iexists _; isplitr
      swap; · iexact H2
      ipureintro
      refine (View.read_writes_of_cover _ _ VO VO.junk _ (cover_last_out _ _ _ _ _ _ _ _ _ _ _ _ _ _ _ _ _)).trans ?_
      rw [read_last_out, lastAcc_indep m c t h1 d0]
    · rw [leaves2_idle m c t h1, sumAt_inner m c t h0 h1]
      iintro ⟨⟨HS, Hg⟩, Ho, ⟨%d0, H0⟩, ⟨%d1, H1⟩, ⟨%d2, H2⟩⟩
      iapply ((runInner c (grid0.coords t) _ _ _ _ _ _ _ _ (fun h => h0 ((hFirst t).mp h)) (fun h => h1 ((hLast t).mp h)) ((hInner t).mpr h1) (fun h => h1 ((hStore t).mp h)) (win0_0.fill (grid0.coords t) d0 (iblk m c 0 t)) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro
          refine (View.read_writes_of_cover _ _ VS VS.junk _ (cover_inner _ _ _ _ _ _ _ _ _ _ _ _ _ _ _ _ _)).trans ?_
          rw [read_inner, fill_inside m c t h1 d0]
        iexact Hg
      isplitl [Ho]; · iexact Ho
      isplitl [H0]; · iexists d0; iexact H0
      isplitl [H1]; · iexact H1
      iexists d2; iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 66 := N_0; omega), PhiA_eq]
  iintro ⟨HS, Hg⟩
  isplitl [HS]
  · iexists _; iexact HS
  iexact Hg

/-! ## The run and the frame -/

set_option backward.isDefEq.respectTransparency.types false in
/-- Every weakly fair execution of the program terminates, and every final state has every array of the region at
    what the write-backs leave and every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, nothing faults, and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Pool

end
-- ==== Proof.PoolCommonI.lean ====
/-
  What the three control cases of the pooling kernel's body share. The grid is (2, 33): the first axis picks a block of
  512 batch rows, the second walks 33 column blocks of 3072 items. The body keeps a running sum in a scratch buffer: at
  column block 0 it first zeroes the scratch; at every column block but the last it adds the block's product of the
  0/1 mask of positive entries with the augmented embedding block; at the last column block (index 32) it adds the same
  product with the mask also cut to the columns inside the array, and then stores the quotient of the first 64 columns
  of the running sum by its column 64 into the output block. The four branch conditions are functions of the second
  grid coordinate alone, decided here over the 66 grid points in closed form.
-/
import proofs.«105519_j24464133718086_2_alg».proof.Proof.Gen.KernelIdeal.Frame
import proofs.«105519_j24464133718086_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch conditions, as functions of the grid coordinates -/

/-- "the column block is the first" (the scratch is zeroed). -/
abbrev condFirst (i : grid0.Coords) : Prop := (Scalar.cmpi .ne (Scalar.extui (Scalar.cmpi .eq (BitVec.ofNat 32 (i 1).val) 0#32)) 0#32) = 1#1
/-- "the column block is the last" (the masked accumulation). -/
abbrev condLast (i : grid0.Coords) : Prop := (Scalar.cmpi .ne (Scalar.extui (Scalar.cmpi .eq (BitVec.ofNat 32 (i 1).val) 32#32)) 0#32) = 1#1
/-- "the column block is not the last" (the plain accumulation). -/
abbrev condInner (i : grid0.Coords) : Prop := (Scalar.cmpi .ne (Scalar.extui (Scalar.cmpi .ne (BitVec.ofNat 32 (i 1).val) 32#32)) 0#32) = 1#1
/-- "the column block is the last" again (the quotient is stored). -/
abbrev condStore (i : grid0.Coords) : Prop := k0_cond4 i = 1#1

theorem hFirst : ∀ t : Fin cfg0.N, condFirst (grid0.coords t) ↔ t.val % 33 = 0 :=
  (by decide +kernel : ∀ t : Fin grid0.N, condFirst (grid0.coords t) ↔ t.val % 33 = 0)
theorem hLast : ∀ t : Fin cfg0.N, condLast (grid0.coords t) ↔ t.val % 33 = 32 :=
  (by decide +kernel : ∀ t : Fin grid0.N, condLast (grid0.coords t) ↔ t.val % 33 = 32)
theorem hInner : ∀ t : Fin cfg0.N, condInner (grid0.coords t) ↔ ¬ t.val % 33 = 32 :=
  (by decide +kernel : ∀ t : Fin grid0.N, condInner (grid0.coords t) ↔ ¬ t.val % 33 = 32)
theorem hStore : ∀ t : Fin cfg0.N, condStore (grid0.coords t) ↔ t.val % 33 = 32 :=
  (by decide +kernel : ∀ t : Fin grid0.N, condStore (grid0.coords t) ↔ t.val % 33 = 32)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last column block the output window is idle and is not written back. -/
theorem idle2 : ∀ t : Fin cfg0.N, ¬ t.val % 33 = 32 → cfg0.idle 2 (grid0.coords t) = true := by decide +kernel
theorem noFlush2 : ∀ t : Fin cfg0.N, ¬ t.val % 33 = 32 → (cfg0.win 2).flush t = false := by decide +kernel
/-- At the last column block the output window is live. -/
theorem live2 : ∀ t : Fin cfg0.N, t.val % 33 = 32 → cfg0.idle 2 (grid0.coords t) = false := by decide +kernel

/-! ## The memrefs the body is called with -/

abbrev ms0 (t : Fin cfg0.N) : Memref sig .tc .vmem S512x3072 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3072x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x64 .f32 := win0_2.stage (cfg0.slots t 2)
abbrev hs2 (t : Fin cfg0.N) : (ms2 t).IsWhole := hstage0_2 ((cfg0.slots t 2).cast nbuf0_2)
/-- The running sum's scratch buffer. -/
abbrev scM : Memref sig .tc .vmem S512x128 .f32 := Memref.whole cc0_scratch0
abbrev VS : View sig .tc .vmem S512x128 .f32 := scM.view
abbrev VO : View sig .tc .vmem S512x64 .f32 := (Memref.whole cc0_stg2_0 : Memref sig .tc .vmem S512x64 .f32).view

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Pool

end
-- ==== Proof.PoolRunFirstI.lean ====
/-
  The body at a first column block (second grid coordinate 0): the scratch is zeroed and the block's plain
  mask-times-embeddings product is added to it; the output buffer is not touched. The stores into the scratch are found
  by running the body symbolically.
-/
import proofs.«105519_j24464133718086_2_alg».proof.Proof.PoolCommonI

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- On whole memrefs — the two input buffers at their contents, the output's at contents handed back untouched, the
    scratch at anything — the body runs to the continuation with the scratch holding the listed stores. -/
noncomputable def runFirst (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : condFirst i) (hc1 : ¬condLast i) (hc2 : condInner i) (hc3 : ¬condStore i)
    (x0 : Vec F S512x3072 .i32) (x1 : Vec F S3072x128 .bf16) :
    { LS : List (View.Piece (Elt F) S512x128 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Pool

end
-- ==== Proof.PoolRunInnerI.lean ====
/-
  The body at an inner column block (second grid coordinate strictly between 0 and 32): the block's plain
  mask-times-embeddings product is added to the scratch, which arrives holding the running sum of the blocks before;
  the output buffer is not touched.
-/
import proofs.«105519_j24464133718086_2_alg».proof.Proof.PoolCommonI

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runInner (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : ¬condLast i) (hc2 : condInner i) (hc3 : ¬condStore i)
    (x0 : Vec F S512x3072 .i32) (x1 : Vec F S3072x128 .bf16) (xs : Vec F S512x128 .f32) :
    { LS : List (View.Piece (Elt F) S512x128 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Pool

end
-- ==== Proof.PoolRunLastI.lean ====
/-
  The body at a last column block (second grid coordinate 32): the block's product with the mask cut to the columns
  inside the array is added to the scratch, and the quotient of the running sum's first 64 columns by its column 64 is
  stored into the output buffer, which arrives holding anything.
-/
import proofs.«105519_j24464133718086_2_alg».proof.Proof.PoolCommonI

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) :
    Σ' (L2 : List (View.Piece (Elt F) S512x64 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Pool

end
-- ==== Proof.PoolDataI.lean ====
/-
  The pooling kernel's frame: what the scratch buffer and the staging buffers hold after each grid point, the region's
  invariant, the body's obligation at every point, and the run of the whole program.

  The grid's 66 points are (row block, column block) in row-major order, so point `t` is column block `t mod 33` of row
  block `t / 33`. The scratch holds the running sum of the row block's products: after a first column block the
  product added to zero, after any other the product added to what the point before left — at a last column block
  with the mask cut to the columns inside the array. The first operand's last column block overhangs its array: the
  staging buffer then holds the block on the columns inside the array and words nobody names past them. Those words
  never reach a result, because the cut mask is zero exactly on those columns: the masked accumulation is one function
  of the buffer's named part, whatever the rest holds (`lastAcc_indep`).
-/
import proofs.«105519_j24464133718086_2_alg».proof.Proof.PoolRunFirstI
import proofs.«105519_j24464133718086_2_alg».proof.Proof.PoolRunInnerI
import proofs.«105519_j24464133718086_2_alg».proof.Proof.PoolRunLastI
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs' stores leave, read back -/

theorem cover_first (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : condFirst i) (hc1 : ¬condLast i) (hc2 : condInner i) (hc3 : ¬condStore i)
    (x0 : Vec F S512x3072 .i32) (x1 : Vec F S3072x128 .bf16) (y : S512x128.Idx) :
    ∃ pc ∈ (runFirst c i arg2 harg2 arg3 harg3 arg4 harg4 arg5 harg5 hc0 hc1 hc2 hc3 x0 x1).1, y ∈ pc.1.set :=
  View.cover_of_tiledL _ S512x128.size (by sl_kernel_rfl) y

theorem cover_inner (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : ¬condLast i) (hc2 : condInner i) (hc3 : ¬condStore i)
    (x0 : Vec F S512x3072 .i32) (x1 : Vec F S3072x128 .bf16) (xs : Vec F S512x128 .f32) (y : S512x128.Idx) :
    ∃ pc ∈ (runInner c i arg2 harg2 arg3 harg3 arg4 harg4 arg5 harg5 hc0 hc1 hc2 hc3 x0 x1 xs).1, y ∈ pc.1.set :=
  View.cover_of_tiledL _ S512x128.size (by sl_kernel_rfl) y

theorem cover_last_acc (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) (y : S512x128.Idx) :
    ∃ pc ∈ (runLast c i arg2 harg2 arg3 harg3 arg4 harg4 arg5 harg5 hc0 hc1 hc2 hc3 x0 x1 xs).2.1, y ∈ pc.1.set :=
  View.cover_of_tiledL _ S512x128.size (by sl_kernel_rfl) y

theorem cover_last_out (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) (y : S512x64.Idx) :
    ∃ pc ∈ (runLast c i arg2 harg2 arg3 harg3 arg4 harg4 arg5 harg5 hc0 hc1 hc2 hc3 x0 x1 xs).1, y ∈ pc.1.set :=
  View.cover_of_tiledL _ S512x64.size (by sl_kernel_rfl) y

theorem hz2 : (![0, 0] : Fin 2 → Nat) = fun _ => 0 := funext fun a => by fin_cases a <;> rfl

/-- A first column block leaves the product added to zero. -/
theorem read_first (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : condFirst i) (hc1 : ¬condLast i) (hc2 : condInner i) (hc3 : ¬condStore i)
    (x0 : Vec F S512x3072 .i32) (x1 : Vec F S3072x128 .bf16) :
    VS.read (Elt F) (VS.writes (Elt F) VS.junk (runFirst c i arg2 harg2 arg3 harg3 arg4 harg4 arg5 harg5 hc0 hc1 hc2 hc3 x0 x1).1)
      = k0_pay3 x0 (k0_pay1 (F := F)) x1 := by
  rw [View.read_writes_eq_canon _ _ _ (cover_first c i arg2 harg2 arg3 harg3 arg4 harg4 arg5 harg5 hc0 hc1 hc2 hc3 x0 x1)]
  unfold runFirst; dsimp only
  sl_unfold_run_names
  rw [View.canon_cons_unit_zero hz2]
  simp only [View.readAt_eq_ld, harg2.read_unread, harg3.read_unread, View.ld_unit_zero (S := S512x3072) hz2,
    View.ld_unit_zero (S := S3072x128) hz2]
  rw [View.readCov_unit_zero (S := S512x128) arg5.view hz2]

/-- An inner column block leaves the product added to what the scratch held. -/
theorem read_inner (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : ¬condLast i) (hc2 : condInner i) (hc3 : ¬condStore i)
    (x0 : Vec F S512x3072 .i32) (x1 : Vec F S3072x128 .bf16) (xs : Vec F S512x128 .f32) :
    VS.read (Elt F) (VS.writes (Elt F) VS.junk (runInner c i arg2 harg2 arg3 harg3 arg4 harg4 arg5 harg5 hc0 hc1 hc2 hc3 x0 x1 xs).1)
      = k0_pay3 x0 xs x1 := by
  rw [View.read_writes_eq_canon _ _ _ (cover_inner c i arg2 harg2 arg3 harg3 arg4 harg4 arg5 harg5 hc0 hc1 hc2 hc3 x0 x1 xs)]
  unfold runInner; dsimp only
  sl_unfold_run_names
  rw [View.canon_cons_unit_zero hz2]
  simp only [View.readAt_eq_ld, harg2.read_unread, harg3.read_unread, harg5.read_unread, View.ld_unit_zero (S := S512x3072) hz2,
    View.ld_unit_zero (S := S3072x128) hz2, View.ld_unit_zero (S := S512x128) hz2]

/-- A last column block leaves in the scratch the masked product added to what it held, -/
theorem read_last_acc (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) :
    VS.read (Elt F) (VS.writes (Elt F) VS.junk (runLast c i arg2 harg2 arg3 harg3 arg4 harg4 arg5 harg5 hc0 hc1 hc2 hc3 x0 x1 xs).2.1)
      = k0_pay2 i x0 xs x1 := by
  rw [View.read_writes_eq_canon _ _ _ (cover_last_acc c i arg2 harg2 arg3 harg3 arg4 harg4 arg5 harg5 hc0 hc1 hc2 hc3 x0 x1 xs)]
  unfold runLast; dsimp only
  sl_unfold_run_names
  rw [View.canon_cons_unit_zero hz2]
  simp only [View.readAt_eq_ld, harg2.read_unread, harg3.read_unread, harg5.read_unread, View.ld_unit_zero (S := S512x3072) hz2,
    View.ld_unit_zero (S := S3072x128) hz2, View.ld_unit_zero (S := S512x128) hz2]

/-- and in the output's buffer the quotient read off that sum. -/
theorem read_last_out (c : Dev nD) (i : grid0.Coords) (arg2 : Memref sig .tc .vmem S512x3072 .i32) (harg2 : arg2.IsWhole) (arg3 : Memref sig .tc .vmem S3072x128 .bf16) (harg3 : arg3.IsWhole) (arg4 : Memref sig .tc .vmem S512x64 .f32) (harg4 : arg4.IsWhole) (arg5 : Memref sig .tc .vmem S512x128 .f32) (harg5 : arg5.IsWhole)
    (hc0 : ¬condFirst i) (hc1 : condLast i) (hc2 : ¬condInner i) (hc3 : condStore i)
    (x0 : Vec F S512x3072 .i32) (x1 : Vec F S3072x128 .bf16) (xs : Vec F S512x128 .f32) :
    VO.read (Elt F) (VO.writes (Elt F) VO.junk (runLast c i arg2 harg2 arg3 harg3 arg4 harg4 arg5 harg5 hc0 hc1 hc2 hc3 x0 x1 xs).1)
      = k0_pay4 (k0_pay2 i x0 xs x1) := by
  rw [View.read_writes_eq_canon _ _ _ (cover_last_out c i arg2 harg2 arg3 harg3 arg4 harg4 arg5 harg5 hc0 hc1 hc2 hc3 x0 x1 xs)]
  unfold runLast; dsimp only
  sl_unfold_run_names
  rw [View.canon_cons_unit_zero hz2]
  simp only [View.readAt_eq_ld, harg2.read_unread, harg3.read_unread, harg5.read_unread, View.ld_unit_zero (S := S512x3072) hz2,
    View.ld_unit_zero (S := S3072x128) hz2, View.ld_unit_zero (S := S512x128) hz2]
  rw [View.readCov_unit_zero (S := S512x128) arg5.view hz2]

/-! ## The first operand's staging buffer -/

/-- Away from the last column block the first operand's block lies inside its array. -/
theorem clip_none : ∀ t : Fin cfg0.N, ¬ t.val % 33 = 32 → ∀ a, win0_0.clip (grid0.coords t) a = none := by decide +kernel
/-- At a last column block the part inside the array is all 512 rows and the first 1696 columns, and the block is
    column block 32. -/
theorem xsize_last : ∀ t : Fin cfg0.N, t.val % 33 = 32 →
    win0_0.xsize (grid0.coords t) 0 = 512 ∧ win0_0.xsize (grid0.coords t) 1 = 1696 ∧ ((grid0.coords t) 1).val = 32 := by decide +kernel

/-- What the first operand's staging buffer is taken to hold at point `t`: the block on its part inside the array,
    the zero word past the array's last column. -/
def posBuf (c : Dev nD) (t : Fin cfg0.N) : Vec F S512x3072 .i32 :=
  win0_0.fill (grid0.coords t) (fun _ => (0#32 : BitVec 32)) (iblk m c 0 t)

/-- A block inside the array fills the whole buffer: nothing of what the buffer held before is left. -/
theorem fill_inside (c : Dev nD) (t : Fin cfg0.N) (h : ¬ t.val % 33 = 32) (d : S512x3072.Idx → BitVec 32) :
    win0_0.fill (grid0.coords t) d (iblk m c 0 t) = posBuf m c t := by
  funext j
  have hm : win0_0.moved (grid0.coords t) j = true :=
    (win0_0.moved_iff _ j).mpr fun a => by have := (j a).isLt; unfold Window.xsize; rw [clip_none t h a]; exact this
  unfold posBuf Window.fill; rw [dif_pos hm, dif_pos hm]

/-- From column 1696 of column block 32 on, the column's number in the array is 100000 or more. -/
theorem col_outside : ∀ j : Fin 3072, 1696 ≤ j.val →
    IntOp.cmpi .slt (IntOp.addi (BitVec.ofNat 32 (0 * 3072 + j.val)) (IntOp.muli (BitVec.ofNat 32 32) 3072#32)) 100000#32 = 0#1 := by decide +kernel

/-- The mask of the last column block — "positive, and the column is inside the array" — does not see the words past
    the array's last column: there its second conjunct is zero. -/
theorem mask_indep (t : Fin cfg0.N) (h : t.val % 33 = 32) (d d' : S512x3072.Idx → BitVec 32)
    (g : (win0_0.xblock (grid0.coords t)).Idx → BitVec 32) :
    andi (cmpi .sgt (win0_0.fill (grid0.coords t) d g) (broadcast S512x3072 0#32))
        (cmpi .slt (addi (iota .tc S512x3072 32 [1] iota_S512x3072_d1_w32) (broadcast S512x3072 (Scalar.muli (BitVec.ofNat 32 ((grid0.coords t) 1).val) 3072#32))) (broadcast S512x3072 100000#32))
      = andi (cmpi .sgt (win0_0.fill (grid0.coords t) d' g) (broadcast S512x3072 0#32))
        (cmpi .slt (addi (iota .tc S512x3072 32 [1] iota_S512x3072_d1_w32) (broadcast S512x3072 (Scalar.muli (BitVec.ofNat 32 ((grid0.coords t) 1).val) 3072#32))) (broadcast S512x3072 100000#32)) := by
  obtain ⟨h0, h1, hk⟩ := xsize_last t h
  funext j
  by_cases hm : win0_0.moved (grid0.coords t) j = true
  · show IntOp.andi (IntOp.cmpi .sgt (win0_0.fill (grid0.coords t) d g j) 0#32) _ = IntOp.andi (IntOp.cmpi .sgt (win0_0.fill (grid0.coords t) d' g j) 0#32) _
    unfold Window.fill; rw [dif_pos hm, dif_pos hm]
  · have hj : 1696 ≤ (j 1).val := by
      by_contra hlt
      apply hm
      refine (win0_0.moved_iff _ j).mpr fun a => ?_
      match a with
      | ⟨0, _⟩ => show (j 0).val < win0_0.xsize (grid0.coords t) 0; rw [h0]; exact (j 0).isLt
      | ⟨1, _⟩ => show (j 1).val < win0_0.xsize (grid0.coords t) 1; rw [h1]; omega
    have hj' : (j 1).val < 3072 := (j 1).isLt
    have hv : IntOp.cmpi .slt (IntOp.addi (BitVec.ofNat 32 (0 * 3072 + (j 1).val)) (IntOp.muli (BitVec.ofNat 32 ((grid0.coords t) 1).val) 3072#32)) 100000#32 = 0#1 := by
      rw [hk]
      exact col_outside ⟨(j 1).val, hj'⟩ hj
    show IntOp.andi _ (IntOp.cmpi .slt (IntOp.addi (BitVec.ofNat 32 (0 * 3072 + (j 1).val)) (IntOp.muli (BitVec.ofNat 32 ((grid0.coords t) 1).val) 3072#32)) 100000#32)
      = IntOp.andi _ (IntOp.cmpi .slt (IntOp.addi (BitVec.ofNat 32 (0 * 3072 + (j 1).val)) (IntOp.muli (BitVec.ofNat 32 ((grid0.coords t) 1).val) 3072#32)) 100000#32)
    rw [hv]; unfold IntOp.andi; rw [BitVec.and_zero, BitVec.and_zero]

/-- So the masked accumulation is one function of the buffer's part inside the array. -/
theorem lastAcc_indep (c : Dev nD) (t : Fin cfg0.N) (h : t.val % 33 = 32) (d : S512x3072.Idx → BitVec 32)
    (xs : Vec F S512x128 .f32) (x1 : Vec F S3072x128 .bf16) :
    k0_pay2 (grid0.coords t) (win0_0.fill (grid0.coords t) d (iblk m c 0 t)) xs x1 = k0_pay2 (grid0.coords t) (posBuf m c t) xs x1 := by
  unfold k0_pay2 posBuf; dsimp only
  rw [mask_indep t h d (fun _ => (0#32 : BitVec 32)) (iblk m c 0 t)]
  rfl

/-! ## The running sum, point by point -/

/-- What the scratch holds after the body at position `n`. -/
def sumAt (c : Dev nD) : (n : ℕ) → n < cfg0.N → Vec F S512x128 .f32
  | 0, hn => k0_pay3 (posBuf m c ⟨0, hn⟩) (k0_pay1 (F := F)) (iblk m c 1 ⟨0, hn⟩)
  | n + 1, hn =>
    if (n + 1) % 33 = 0 then k0_pay3 (posBuf m c ⟨n + 1, hn⟩) (k0_pay1 (F := F)) (iblk m c 1 ⟨n + 1, hn⟩)
    else if (n + 1) % 33 = 32 then
      k0_pay2 (grid0.coords ⟨n + 1, hn⟩) (posBuf m c ⟨n + 1, hn⟩) (sumAt c n (Nat.lt_of_succ_lt hn)) (iblk m c 1 ⟨n + 1, hn⟩)
    else k0_pay3 (posBuf m c ⟨n + 1, hn⟩) (sumAt c n (Nat.lt_of_succ_lt hn)) (iblk m c 1 ⟨n + 1, hn⟩)

theorem sumAt_first (c : Dev nD) (t : Fin cfg0.N) (h0 : t.val % 33 = 0) :
    sumAt m c t.val t.isLt = k0_pay3 (posBuf m c t) (k0_pay1 (F := F)) (iblk m c 1 t) := by
  obtain ⟨n, hn⟩ := t
  cases n with
  | zero => rfl
  | succ n => exact (if_pos h0)

theorem sumAt_inner (c : Dev nD) (t : Fin cfg0.N) (h0 : ¬t.val % 33 = 0) (h1 : ¬t.val % 33 = 32) :
    sumAt m c t.val t.isLt = k0_pay3 (posBuf m c t) (sumAt m c (t.val - 1) (Nat.lt_of_le_of_lt (Nat.sub_le _ _) t.isLt)) (iblk m c 1 t) := by
  obtain ⟨n, hn⟩ := t
  cases n with
  | zero => exact absurd (Nat.zero_mod _) h0
  | succ n => exact (if_neg h0).trans (if_neg h1)

theorem sumAt_last (c : Dev nD) (t : Fin cfg0.N) (h1 : t.val % 33 = 32) :
    sumAt m c t.val t.isLt = k0_pay2 (grid0.coords t) (posBuf m c t) (sumAt m c (t.val - 1) (Nat.lt_of_le_of_lt (Nat.sub_le _ _) t.isLt)) (iblk m c 1 t) := by
  obtain ⟨n, hn⟩ := t
  cases n with
  | zero => exact absurd h1 (show ¬ (0 % 33 = 32) by decide)
  | succ n => exact (if_neg (by dsimp only at h1 ⊢; omega)).trans (if_pos h1)

/-- What the output's staging buffer holds after a last column block: the quotient read off the running sum. (At
    the other points the value is never consulted: the window is idle there and is not written back.) -/
def outAt (c : Dev nD) (t : Fin cfg0.N) : Vec F S512x64 .f32 := k0_pay4 (sumAt m c t.val t.isLt)

/-- The region's invariant before position `n`: before the first point the scratch at anything, afterwards at the
    running sum the point before left; the generator register at some state. -/
def PhiS (c : Dev nD) : (n : ℕ) → n ≤ cfg0.N → sProp 𝕄
  | 0, _ => Pipeline.ΦA spec0 c
  | n + 1, hn => iprop(iprop(owns (c : Thread nD τ) scM fullShare (sumAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (sumAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (sumAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => posBuf m c t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = posBuf m c t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

/-- The first operand's buffer, just fetched: the block on its part inside the array, anything past it. -/
theorem before0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]
/-- The second operand's buffer holds its block. -/
theorem before1 (c : Dev nD) (t : Fin cfg0.N) (d) : (dats m 0 c).before 1 t d = iblk m c 1 t :=
  before0_1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the first operand's buffer stated on its part inside the array only. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live0 t]
  show iprop(∃ d, owns (c : Thread nD τ) (ms0 t) fullShare (win0_0.fill (grid0.coords t) d (win0_0.cut (grid0.coords t) ((dats m 0 c).after 0 t)))) = _
  rw [after0]; unfold posBuf; rw [win0_0.cut_fill]

theorem leaves1 (c : Dev nD) (t : Fin cfg0.N) :
    (dats m 0 c).leaves 1 t = owns (c : Thread nD τ) (ms1 t) fullShare (iblk m c 1 t) := by
  unfold Dat.leaves; rw [live1 t]
  show owns (c : Thread nD τ) (ms1 t) fullShare ((dats m 0 c).after 1 t) = _
  rw [after1]

theorem leaves2_live (c : Dev nD) (t : Fin cfg0.N) (h : t.val % 33 = 32) :
    (dats m 0 c).leaves 2 t = owns (c : Thread nD τ) (ms2 t) fullShare (outAt m c t) := by
  unfold Dat.leaves; rw [live2 t h]
  show owns (c : Thread nD τ) (ms2 t) fullShare ((dats m 0 c).after 2 t) = _
  rw [after2]

theorem leaves2_idle (c : Dev nD) (t : Fin cfg0.N) (h : ¬ t.val % 33 = 32) :
    (dats m 0 c).leaves 2 t = iprop(∃ d, owns (c : Thread nD τ) (ms2 t) fullShare ((dats m 0 c).before 2 t d)) :=
  Dat.leaves_idle (dats m 0 c) 2 t (idle2 t h) (noFlush2 t h)

set_option maxHeartbeats 4800000 in
/-- The body at any point: which of the three cases the point is in is read off its position; the case's run applies
    at what the buffers hold; the scratch is handed over at the running sum so far (at anything before the first
    point) and taken back at the new one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 66 := lt_of_lt_of_eq t.isLt (show cfg0.N = 66 from N_0)
  by_cases h0 : t.val % 33 = 0
  · have h1 : ¬ t.val % 33 = 32 := by omega
    rw [leaves2_idle m c t h1, sumAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hFirst t).mpr h0) (fun h => h1 ((hLast t).mp h)) ((hInner t).mpr h1) (fun h => h1 ((hStore t).mp h)) (win0_0.fill (grid0.coords t) d0 (iblk m c 0 t)) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro
          refine (View.read_writes_of_cover _ _ VS VS.junk _ (cover_first _ _ _ _ _ _ _ _ _ _ _ _ _ _ _ _)).trans ?_
          rw [read_first, fill_inside m c t h1 d0]
        iexact Hg
      isplitl [Ho]; · iexact Ho
      isplitl [H0]; · iexists d0; iexact H0
      isplitl [H1]; · iexact H1
      iexists d2; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hFirst t).mpr h0) (fun h => h1 ((hLast t).mp h)) ((hInner t).mpr h1) (fun h => h1 ((hStore t).mp h)) (win0_0.fill (grid0.coords t) d0 (iblk m c 0 t)) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro
          refine (View.read_writes_of_cover _ _ VS VS.junk _ (cover_first _ _ _ _ _ _ _ _ _ _ _ _ _ _ _ _)).trans ?_
          rw [read_first, fill_inside m c t h1 d0]
        iexact Hg
      isplitl [Ho]; · iexact Ho
      isplitl [H0]; · iexists d0; iexact H0
      isplitl [H1]; · iexact H1
      iexists d2; iexact H2
  · have hz : t.val ≠ 0 := fun h => h0 (by rw [h])
    rw [PhiS_castSucc m c t, PhiS_pos m c _ _ hz]
    by_cases h1 : t.val % 33 = 32
    · rw [leaves2_live m c t h1]; unfold outAt; rw [sumAt_last m c t h1]
      iintro ⟨⟨HS, Hg⟩, Ho, ⟨%d0, H0⟩, ⟨%d1, H1⟩, ⟨%d2, H2⟩⟩
      iapply ((runLast c (grid0.coords t) _ _ _ _ _ _ _ _ (fun h => h0 ((hFirst t).mp h)) ((hLast t).mpr h1) (fun h => (hInner t).mp h h1) ((hStore t).mpr h1) (win0_0.fill (grid0.coords t) d0 (iblk m c 0 t)) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro
          refine (View.read_writes_of_cover _ _ VS VS.junk _ (cover_last_acc _ _ _ _ _ _ _ _ _ _ _ _ _ _ _ _ _)).trans ?_
          rw [read_last_acc, lastAcc_indep m c t h1 d0]
        iexact Hg
      isplitl [Ho]; · iexact Ho
      isplitl [H0]; · iexists d0; iexact H0
      isplitl [H1]; · iexact H1
      unfold owns; iexists _; isplitr
      swap; · iexact H2
      ipureintro
      refine (View.read_writes_of_cover _ _ VO VO.junk _ (cover_last_out _ _ _ _ _ _ _ _ _ _ _ _ _ _ _ _ _)).trans ?_
      rw [read_last_out, lastAcc_indep m c t h1 d0]
    · rw [leaves2_idle m c t h1, sumAt_inner m c t h0 h1]
      iintro ⟨⟨HS, Hg⟩, Ho, ⟨%d0, H0⟩, ⟨%d1, H1⟩, ⟨%d2, H2⟩⟩
      iapply ((runInner c (grid0.coords t) _ _ _ _ _ _ _ _ (fun h => h0 ((hFirst t).mp h)) (fun h => h1 ((hLast t).mp h)) ((hInner t).mpr h1) (fun h => h1 ((hStore t).mp h)) (win0_0.fill (grid0.coords t) d0 (iblk m c 0 t)) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro
          refine (View.read_writes_of_cover _ _ VS VS.junk _ (cover_inner _ _ _ _ _ _ _ _ _ _ _ _ _ _ _ _ _)).trans ?_
          rw [read_inner, fill_inside m c t h1 d0]
        iexact Hg
      isplitl [Ho]; · iexact Ho
      isplitl [H0]; · iexists d0; iexact H0
      isplitl [H1]; · iexact H1
      iexists d2; iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 66 := N_0; omega), PhiA_eq]
  iintro ⟨HS, Hg⟩
  isplitl [HS]
  · iexists _; iexact HS
  iexact Hg

/-! ## The run and the frame -/

set_option backward.isDefEq.respectTransparency.types false in
/-- Every weakly fair execution of the program terminates, and every final state has every array of the region at
    what the write-backs leave and every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, nothing faults, and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Pool

end
-- ==== Proof.PoolSpec.lean ====
/-
  The mathematics of the masked mean-pool, with no program in sight. A row of `pos` selects the items whose entry is
  positive; the pooled embedding of the row is the sum of the selected rows of `Y` divided by their number (the
  extended reals' quotient, junk at 0/0, the same on both sides). The kernel reaches it through an AUGMENTED table: `Y`
  with a 65th column of ones (so that the count is one more column of the same matrix product), padded with zeros to
  101376 rows and 128 columns, the 101376 rows walked in 33 blocks of 3072. Two facts about sums over an additive
  commutative monoid join the two arrangements: a sum over 33 · 3072 indices is the sum over the blocks of the sums
  inside the blocks, and the indices from 100000 on contribute nothing when their terms vanish. Neither needs finiteness:
  only commutativity and associativity of addition on the extended reals are used.
-/
import Idealize.ShloMosaic.PureOps.Ideal
import Idealize.ShloMosaic.Lib.ValueIdx

noncomputable section

open scoped BigOperators

namespace Cert.PoolSpec

open Idealize.ShloMosaic Idealize.ShloMosaic.ValueIdx

abbrev SPos : Shape := ⟨2, ![1024, 100000]⟩
abbrev SEmb : Shape := ⟨2, ![100000, 64]⟩

/-- One where the word, read as a signed integer, is positive; zero elsewhere. -/
def ind (w : BitVec 32) : EReal := if IntOp.cmpi .sgt w 0#32 = 1#1 then 1 else 0

/-- The pooled embedding of batch row `b` at column `d`: the selected rows' sum over their count. -/
def pooledAt (pos : SPos.Idx → BitVec 32) (Y : SEmb.Idx → EReal) (b : Fin 1024) (d : Fin 64) : EReal :=
  Ideal.div (∑ n : Fin 100000, ind (pos (ix2 b n)) * Y (ix2 n d)) (∑ n : Fin 100000, ind (pos (ix2 b n)))

/-- The augmented, padded table at row `n` and lane `l`: `Y`'s entry on the first 64 lanes of a row inside the
    table, one on lane 64 of such a row, zero everywhere else. -/
def yaug (Y : SEmb.Idx → EReal) (n : Fin 101376) (l : Fin 128) : EReal :=
  if h : n.val < 100000 then
    (if h' : l.val < 64 then Y (ix2 ⟨n.val, h⟩ ⟨l.val, h'⟩) else if l.val = 64 then 1 else 0)
  else 0

/-- The mask extended by zero past the last item. -/
def indPad (pos : SPos.Idx → BitVec 32) (b : Fin 1024) (n : ℕ) : EReal :=
  if h : n < 100000 then ind (pos (ix2 b ⟨n, h⟩)) else 0

/-- A sum over 33 · 3072 consecutive indices, block by block. -/
theorem sum_blocks {M : Type*} [AddCommMonoid M] (f : ℕ → M) :
    ∑ k : Fin 33, ∑ j : Fin 3072, f (3072 * k.val + j.val) = ∑ n : Fin 101376, f n.val := by
  rw [← Fintype.sum_prod_type', ← Equiv.sum_comp (finProdFinEquiv (m := 33) (n := 3072)) (fun n : Fin 101376 => f n.val)]
  refine Finset.sum_congr rfl fun p _ => ?_
  show f (3072 * p.1.val + p.2.val) = f (p.2.val + 3072 * p.1.val)
  rw [Nat.add_comm]

/-- Terms that vanish from 100000 on drop out of a sum over 101376 indices. -/
theorem sum_trunc {M : Type*} [AddCommMonoid M] (f : ℕ → M) (h : ∀ n, 100000 ≤ n → f n = 0) :
    ∑ n : Fin 101376, f n.val = ∑ n : Fin 100000, f n.val := by
  rw [Fin.sum_univ_eq_sum_range (fun n => f n) 101376, Fin.sum_univ_eq_sum_range (fun n => f n) 100000]
  rw [show 101376 = 100000 + 1376 from rfl, Finset.sum_range_add]
  rw [Finset.sum_eq_zero (s := Finset.range 1376) (fun x _ => h _ (Nat.le_add_right _ _)), add_zero]

/-- A running sum started from zero and increased by one term per step is the sum of the terms so far. -/
theorem run_sum {M : Type*} [AddCommMonoid M] (S : ℕ → M) (A : ℕ → M) (h0 : A 0 = 0 + S 0)
    (hs : ∀ k, A (k + 1) = A k + S (k + 1)) (k : ℕ) : A k = ∑ k' ∈ Finset.range (k + 1), S k' := by
  induction k with
  | zero => rw [h0, zero_add, Finset.sum_range_one]
  | succ k ih => rw [hs, ih, Finset.sum_range_succ _ (k + 1)]

end Cert.PoolSpec

end
-- ==== Proof.PoolPay.lean ====
/-
  The kernel body's arithmetic, read one element at a time at the extended reals. The body keeps a [512, 128]
  accumulator: it starts as zero; each step adds to row `r`, lane `l` the sum over the step's 3072 items of the
  indicator "the row's entry for the item is positive" times the item's lane entry of the table block (a matrix product
  of the 0/1 mask with the block, into a zero accumulator); on the last block the indicator is also cut off at the
  table's true length, 100000 items, of which the last block holds those numbered from 98304 on; at the end lanes 0..63
  of a row are divided by the row's lane 64. Conversions between the float formats are the identity on extended reals
  and the conversion of the words 0 and 1 is exact, so the mask's entries are exactly the indicator's values.
-/
import proofs.«105519_j24464133718086_2_alg».proof.Proof.Gen.KernelIdeal.Skeleton
import proofs.«105519_j24464133718086_2_alg».proof.Proof.PoolSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PoolPay

open Cert.KernelIdeal Cert.KernelIdeal.Gen Idealize.ShloMosaic Idealize.ShloMosaic.ValueIdx

/-- The accumulator's first value: a splat of the word zero, which denotes the extended real zero. -/
theorem pay1_apply (r : Fin 512) (l : Fin 128) : (k0_pay1 (F := Ideal)) (ix2 r l) = 0 := by
  unfold k0_pay1
  rw [shapeCast_self]
  exact Ideal.ofBits_zero_f32

/-- A one-bit word widened to 32 bits and read as a signed integer is one where the bit is set and zero elsewhere. -/
theorem bit_toReal (b : BitVec 1) : (((b.setWidth 32).toInt : ℝ) : EReal) = if b = 1#1 then 1 else 0 := by
  rcases BitVec.eq_zero_or_eq_one b with h | h <;> subst h
  · have e : (BitVec.setWidth 32 (0#1)).toInt = 0 := by decide
    rw [e, if_neg (by decide)]; simp
  · have e : (BitVec.setWidth 32 (1#1)).toInt = 1 := by decide
    rw [e, if_pos rfl]; simp

/-- The mask's element: the comparison's bit, widened, converted to a float and narrowed (both exact on the extended
    reals), is the indicator of a positive word. -/
theorem mask_elt (w : BitVec 32) (h : FTy.bits .bf16 < FTy.bits .f32) :
    FloatOps.truncf (F := Ideal) .bf16 h (FloatOps.sitofp .f32 ((IntOp.cmpi .sgt w 0#32).setWidth 32)) = Cert.PoolSpec.ind w := by
  show (((((IntOp.cmpi .sgt w 0#32).setWidth 32).toInt : ℝ) : EReal)) = _
  rw [bit_toReal]; rfl

/-- The matrix product's dimension numbers: rows by the contracted axis, the contracted axis by lanes. -/
abbrev DD : DotDims S512x3072 S3072x128 S512x128 := dot_S512x3072_S3072x128_S512x128_1_0_0_1_n_n

theorem lhs_DD_0 (i : S512x128.Idx) (q : DD.contr.Idx) : (DD.lhsIdx i q 0).val = (i 0).val := by
  unfold DotDims.lhsIdx
  rw [dif_neg (show ¬(0 : Fin S512x3072.rank) ∈ DD.lhsBatch by decide), dif_pos (show (0 : Fin S512x3072.rank) ∈ DD.lhsNonContracting by decide)]
  rfl
theorem lhs_DD_1 (i : S512x128.Idx) (q : DD.contr.Idx) : (DD.lhsIdx i q 1).val = (q ⟨0, by decide⟩).val :=
  DD.lhsIdx_val_of_single rfl i q
theorem rhs_DD_0 (i : S512x128.Idx) (q : DD.contr.Idx) : (DD.rhsIdx i q 0).val = (q ⟨0, by decide⟩).val :=
  DD.rhsIdx_val_of_single rfl i q
theorem rhs_DD_1 (i : S512x128.Idx) (q : DD.contr.Idx) : (DD.rhsIdx i q 1).val = (i 1).val := by
  unfold DotDims.rhsIdx
  rw [dif_neg (show ¬(1 : Fin S3072x128.rank) ∈ DD.rhsBatch by decide), dif_pos (show (1 : Fin S3072x128.rank) ∈ DD.rhsNonContracting by decide)]
  rfl

/-- The matrix product into a zero accumulator, read at row `r` and lane `l`: the sum over the contracted axis of
    the left operand's row entry times the right operand's lane entry. -/
theorem matmul_zero_apply (Lm : FVec Ideal S512x3072 .bf16) (Rm : FVec Ideal S3072x128 .bf16) (r : Fin 512) (l : Fin 128) :
    matmul DD none Lm Rm (constant (F := Ideal) S512x128 .f32 0x00000000#32) (ix2 r l)
      = ∑ j : Fin 3072, Lm (ix2 r j) * Rm (ix2 j l) := by
  refine (Ideal.matmul_constant_zero_apply DD none Lm Rm (ix2 r l)).trans ?_
  rw [← Equiv.sum_comp (contrEquiv1 DD 3072 rfl rfl).symm]
  refine Finset.sum_congr rfl fun k _ => ?_
  have hk := contrEquiv1_symm_val DD 3072 rfl rfl k
  have el : DD.lhsIdx (ix2 r l) ((contrEquiv1 DD 3072 rfl rfl).symm k) = ix2 r k := funext fun a => Fin.ext (by
    match a with
    | ⟨0, _⟩ => exact lhs_DD_0 _ _
    | ⟨1, _⟩ => exact (lhs_DD_1 _ _).trans hk)
  have er : DD.rhsIdx (ix2 r l) ((contrEquiv1 DD 3072 rfl rfl).symm k) = ix2 k l := funext fun a => Fin.ext (by
    match a with
    | ⟨0, _⟩ => exact (rhs_DD_0 _ _).trans hk
    | ⟨1, _⟩ => exact rhs_DD_1 _ _)
  rw [el, er]

/-- An inner step's stored value at row `r`, lane `l`: the accumulator there plus the block's masked column sum. -/
theorem pay3_apply (X : Vec Ideal S512x3072 .i32) (A : Vec Ideal S512x128 .f32) (Yb : Vec Ideal S3072x128 .bf16)
    (r : Fin 512) (l : Fin 128) :
    k0_pay3 X A Yb (ix2 r l) = A (ix2 r l) + ∑ j : Fin 3072, Cert.PoolSpec.ind (X (ix2 r j)) * Yb (ix2 j l) := by
  unfold k0_pay3
  rw [shapeCast_self, shapeCast_self]
  refine congrArg (A (ix2 r l) + ·) ?_
  refine (matmul_zero_apply _ _ r l).trans ?_
  refine Finset.sum_congr rfl fun j _ => ?_
  exact congrArg (· * Yb (ix2 j l)) (mask_elt (X (ix2 r j)) _)

/-- A column of width one broadcast along the rows' lanes reads, at `(p, c)`, the column's entry on row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The final value at row `r`, column `d`: the accumulator's lane `d` over its lane 64, the extended reals' quotient. -/
theorem pay4_apply (A : Vec Ideal S512x128 .f32) (r : Fin 512) (d : Fin 64) :
    k0_pay4 A (ix2 r d) = Ideal.div (A (ix2 r ⟨d.val, by omega⟩)) (A (ix2 r ⟨64, by decide⟩)) := by
  unfold k0_pay4
  refine (divf_apply _ _ (ix2 r d)).trans ?_
  refine congrArg₂ Ideal.div ?_ ?_
  · exact slice2_axis1_apply 0 A _ r d ⟨d.val, by omega⟩ (Nat.zero_add _).symm
  · refine (broadcastTo_a1_ab_apply _ _ r d).trans ?_
    exact slice2_axis1_apply 64 A _ r (0 : Fin 1) ⟨64, by decide⟩ rfl

/-- The last block's items are numbered from 98304: item `j` of the block lies inside the table exactly when
    `98304 + j` is below 100000 (no wrap-around: every word here is far below 2 ^ 31). -/
theorem inside_bit (j : Fin 3072) :
    IntOp.cmpi .slt (IntOp.addi (BitVec.ofNat 32 (0 * 3072 + j.val)) 98304#32) 100000#32
      = if 98304 + j.val < 100000 then 1#1 else 0#1 := by
  have hj := j.isLt
  have e : IntOp.addi (BitVec.ofNat 32 (0 * 3072 + j.val)) 98304#32 = BitVec.ofNat 32 (98304 + j.val) := by
    show BitVec.ofNat 32 (0 * 3072 + j.val) + BitVec.ofNat 32 98304 = _
    rw [BitVec.ofNat_add_ofNat]; congr 1; omega
  rw [e]
  have hn : (BitVec.ofNat 32 (98304 + j.val)).toNat = 98304 + j.val := by
    rw [BitVec.toNat_ofNat]; omega
  have t : (BitVec.ofNat 32 (98304 + j.val)).toInt = ((98304 + j.val : ℕ) : ℤ) := by
    rw [BitVec.toInt_eq_toNat_of_lt (by rw [hn]; omega), hn]
  have t' : (100000#32 : BitVec 32).toInt = 100000 := by decide
  show BitVec.ofBool ((BitVec.ofNat 32 (98304 + j.val)).slt 100000#32) = _
  rw [BitVec.slt_eq_decide, t, t']
  by_cases hlt : 98304 + j.val < 100000
  · rw [if_pos hlt, decide_eq_true (by omega)]; rfl
  · rw [if_neg hlt, decide_eq_false (by omega)]; rfl

/-- A bit ANDed with a set bit is itself; with a clear bit it is clear. -/
theorem andi_one (b : BitVec 1) : IntOp.andi b 1#1 = b := by
  rcases BitVec.eq_zero_or_eq_one b with h | h <;> subst h <;> decide
theorem andi_zero (b : BitVec 1) : IntOp.andi b 0#1 = 0#1 := by
  rcases BitVec.eq_zero_or_eq_one b with h | h <;> subst h <;> decide

/-- The last block's mask element: the indicator of a positive word, cut off at the table's length. -/
theorem mask2_elt (w : BitVec 32) (j : Fin 3072) (h : FTy.bits .bf16 < FTy.bits .f32) :
    FloatOps.truncf (F := Ideal) .bf16 h (FloatOps.sitofp .f32
        ((IntOp.andi (IntOp.cmpi .sgt w 0#32)
          (IntOp.cmpi .slt (IntOp.addi (BitVec.ofNat 32 (0 * 3072 + j.val)) 98304#32) 100000#32)).setWidth 32))
      = if 98304 + j.val < 100000 then Cert.PoolSpec.ind w else 0 := by
  show (((((IntOp.andi (IntOp.cmpi .sgt w 0#32)
          (IntOp.cmpi .slt (IntOp.addi (BitVec.ofNat 32 (0 * 3072 + j.val)) 98304#32) 100000#32)).setWidth 32).toInt : ℝ) : EReal)) = _
  rw [bit_toReal, inside_bit]
  by_cases hlt : 98304 + j.val < 100000
  · rw [if_pos hlt, if_pos hlt, andi_one]; rfl
  · rw [if_neg hlt, if_neg hlt, andi_zero, if_neg (by decide)]

/-- The last step's stored value at row `r`, lane `l`: as an inner step's, with the indicator cut off at item 100000. -/
theorem pay2_apply (i : grid0.Coords) (hi : (i 1).val = 32) (X : Vec Ideal S512x3072 .i32) (A : Vec Ideal S512x128 .f32)
    (Yb : Vec Ideal S3072x128 .bf16) (r : Fin 512) (l : Fin 128) :
    k0_pay2 i X A Yb (ix2 r l) = A (ix2 r l) + ∑ j : Fin 3072,
      (if 98304 + j.val < 100000 then Cert.PoolSpec.ind (X (ix2 r j)) else 0) * Yb (ix2 j l) := by
  have hw : Scalar.muli (BitVec.ofNat 32 (i 1).val) 3072#32 = 98304#32 := by rw [hi]; decide
  unfold k0_pay2
  rw [shapeCast_self, shapeCast_self]
  refine congrArg (A (ix2 r l) + ·) ?_
  refine (matmul_zero_apply _ _ r l).trans ?_
  refine Finset.sum_congr rfl fun j _ => ?_
  refine congrArg (· * Yb (ix2 j l)) ?_
  rw [hw]
  exact mask2_elt (X (ix2 r j)) j _

end Cert.KernelIdeal.PoolPay

end
-- ==== Proof.PoolBlocks.lean ====
/-
  The blocks of the pooling region's three windows, read at an index. The grid is (2, 33): point `t` has first
  coordinate `t / 33` (a block of 512 batch rows) and second coordinate `t % 33` (a block of 3072 items). The mask
  window's block at `t` is rows `512 (t / 33) + r`, columns `3072 (t % 33) + j` of the mask; its last column block
  overhangs the 100000 columns, so only its first 1696 columns are moved and the rest of the buffer is filled with
  the zero word here. The table window's block at `t` is rows `3072 (t % 33) + j` of the padded table, all 128 lanes.
  The output window's block at `t` is rows `512 (t / 33) + r` of the output, all 64 columns; it is written back at
  the points with `t % 33 = 32`, and those two blocks cover the output.
-/
import proofs.«105519_j24464133718086_2_alg».proof.Proof.Gen.KernelIdeal.Frame
import Idealize.ShloMosaic.Lib.Pipeline.Value
import Idealize.ShloMosaic.Lib.ValueIdx

set_option maxRecDepth 16384

noncomputable section

namespace Cert.KernelIdeal.PoolBlocks

open Cert.KernelIdeal Cert.KernelIdeal.Gen
open Idealize.ShloMosaic Idealize.ShloMosaic.ValueIdx
open Idealize.ShloMosaic.TcCoe
open Idealize.SL.Sem

/-! ## The table window -/

/-- The table window's block index at point `t`: the second grid coordinate on the rows, zero on the lanes. -/
theorem idx_facts1 : ∀ t : Fin cfg0.N, win0_1.index t (0 : Fin 2) = t.val % 33 ∧ win0_1.index t (1 : Fin 2) = 0 :=
  (by decide +kernel : ∀ t : Fin grid0.N, _)

/-- The table window's block at point `t`, read at row `j` and lane `l`, is the padded table at row
    `3072 (t % 33) + j` and lane `l`. -/
theorem yblk_apply (m : (ℓ : Loc nD τ sig) → Buf (Elt Ideal) ℓ) (c : Dev nD) (t : Fin cfg0.N) (j : Fin 3072) (l : Fin 128) :
    Gen.iblk (F := Ideal) m c 1 t (ix2 j l)
      = (Gen.V (F := Ideal) m c main_v3 : S101376x128.Idx → EReal)
          (ix2 ⟨3072 * (t.val % 33) + j.val, by have := t.isLt; have : cfg0.N = 66 := Gen.N_0; omega⟩ l) := by
  obtain ⟨e0, e1⟩ := idx_facts1 t
  unfold Gen.iblk
  show (Gen.V (F := Ideal) m c main_v3 : S101376x128.Idx → EReal) (((cfg0.win 1).blk t).view.emb (ix2 j l)) = _
  refine congrArg (Gen.V (F := Ideal) m c main_v3 : S101376x128.Idx → EReal) ?_
  funext a; apply Fin.ext
  match a with
  | ⟨0, _⟩ => show win0_1.index t (0 : Fin 2) * 3072 + 1 * j.val = 3072 * (t.val % 33) + j.val; omega
  | ⟨1, _⟩ => show win0_1.index t (1 : Fin 2) * 128 + 1 * l.val = l.val; omega

/-! ## The mask window -/

/-- The mask window at point `t`: it moves 512 rows, and 3072 columns but for the last column block, which is cut to
    the 1696 columns inside the array; its block index is the grid point's two coordinates. -/
theorem facts0 : ∀ t : Fin cfg0.N,
    win0_0.xsize (grid0.coords t) (0 : Fin 2) = 512
    ∧ win0_0.xsize (grid0.coords t) (1 : Fin 2) = (if t.val % 33 = 32 then 1696 else 3072)
    ∧ win0_0.index t (0 : Fin 2) = t.val / 33 ∧ win0_0.index t (1 : Fin 2) = t.val % 33 :=
  (by decide +kernel : ∀ t : Fin grid0.N, _)

/-- The mask window's buffer at point `t` — its block where the transfer moves it, the zero word elsewhere — read
    at row `r` and column `j`: the mask at row `512 (t / 33) + r` and column `3072 (t % 33) + j` when that column is
    inside the array, the zero word past it. -/
theorem posbuf_apply (m : (ℓ : Loc nD τ sig) → Buf (Elt Ideal) ℓ) (c : Dev nD) (t : Fin cfg0.N) (r : Fin 512) (j : Fin 3072) :
    win0_0.fill (grid0.coords t) (fun _ => (0#32 : BitVec 32)) (Gen.iblk (F := Ideal) m c 0 t) (ix2 r j)
      = if h : 3072 * (t.val % 33) + j.val < 100000 then
          (Gen.V (F := Ideal) m c main_arg2 : S1024x100000.Idx → BitVec 32)
            (ix2 ⟨512 * (t.val / 33) + r.val, by have := t.isLt; have : cfg0.N = 66 := Gen.N_0; omega⟩
              ⟨3072 * (t.val % 33) + j.val, h⟩)
        else 0#32 := by
  obtain ⟨x0, x1, e0, e1⟩ := facts0 t
  have ht : t.val < 66 := by have := t.isLt; have : cfg0.N = 66 := Gen.N_0; omega
  unfold Pipeline.Window.fill
  by_cases h : 3072 * (t.val % 33) + j.val < 100000
  · have hm : win0_0.moved (grid0.coords t) (ix2 r j) = true := (win0_0.moved_iff _ _).mpr fun a => by
      match a with
      | ⟨0, _⟩ => show r.val < win0_0.xsize (grid0.coords t) (0 : Fin 2); rw [x0]; exact r.isLt
      | ⟨1, _⟩ => show j.val < win0_0.xsize (grid0.coords t) (1 : Fin 2); rw [x1]; split <;> omega
    rw [dif_pos hm, dif_pos h]
    unfold Gen.iblk
    show (Gen.V (F := Ideal) m c main_arg2 : S1024x100000.Idx → BitVec 32) (((cfg0.win 0).blk t).view.emb _) = _
    refine congrArg (Gen.V (F := Ideal) m c main_arg2 : S1024x100000.Idx → BitVec 32) ?_
    funext a; apply Fin.ext
    match a with
    | ⟨0, _⟩ => show win0_0.index t (0 : Fin 2) * 512 + 1 * r.val = 512 * (t.val / 33) + r.val; omega
    | ⟨1, _⟩ => show win0_0.index t (1 : Fin 2) * 3072 + 1 * j.val = 3072 * (t.val % 33) + j.val; omega
  · have hm : ¬win0_0.moved (grid0.coords t) (ix2 r j) = true := fun hm => by
      have h1 : j.val < win0_0.xsize (grid0.coords t) (1 : Fin 2) := (win0_0.moved_iff _ _).mp hm (1 : Fin 2)
      rw [x1] at h1
      split at h1 <;> omega
    rw [dif_neg hm, dif_neg h]

/-! ## The output window -/

/-- The output window's block index at point `t`: the first grid coordinate on the rows, zero on the columns. -/
theorem idx_facts2 : ∀ t : Fin cfg0.N, win0_2.index t (0 : Fin 2) = t.val / 33 ∧ win0_2.index t (1 : Fin 2) = 0 :=
  (by decide +kernel : ∀ t : Fin grid0.N, _)

/-- The output window's block at point `t` of any contents `G` of the output array, read at row `r` and column `d`:
    `G` at row `512 (t / 33) + r` and column `d`. -/
theorem out_read (c : Dev nD) (G : Buf (Elt Ideal) ((cfg0.win 2).arr.view.loc (c.tc : Thread nD τ))) (t : Fin cfg0.N)
    (r : Fin 512) (d : Fin 64) :
    ((cfg0.win 2).blk t).view.read (Elt Ideal) G (ix2 r d)
      = (G : S1024x64.Idx → EReal)
          (ix2 ⟨512 * (t.val / 33) + r.val, by have := t.isLt; have : cfg0.N = 66 := Gen.N_0; omega⟩ d) := by
  obtain ⟨e0, e1⟩ := idx_facts2 t
  show (G : S1024x64.Idx → EReal) (((cfg0.win 2).blk t).view.emb (ix2 r d)) = _
  refine congrArg (G : S1024x64.Idx → EReal) ?_
  funext a; apply Fin.ext
  match a with
  | ⟨0, _⟩ => show win0_2.index t (0 : Fin 2) * 512 + 1 * r.val = 512 * (t.val / 33) + r.val; omega
  | ⟨1, _⟩ => show win0_2.index t (1 : Fin 2) * 64 + 1 * d.val = d.val; omega

/-- An index of the output array is in point `t`'s block iff each coordinate is in the block's range on its axis. -/
theorem mem_blk2 (t : Fin cfg0.N) (i : S1024x64.Idx) :
    i ∈ ((cfg0.win 2).blk t).view.set ↔ ∀ a : Fin 2, win0_2.index t a * S512x64.size a ≤ (i a).val
      ∧ (i a).val < win0_2.index t a * S512x64.size a + S512x64.size a := by
  show i ∈ ((View.whole main_v4).slice (win0_2.rect t)).set ↔ _
  rw [View.set_slice_whole, Rect.mem_set_unit]
  exact Iff.rfl

/-- Every index of the output array is in the block of a point that writes back: row `b` is in the block of the
    point `33 (b / 512) + 32`, the last column block of row block `b / 512`. -/
theorem out_cover' (i : S1024x64.Idx) :
    ∃ t : Fin cfg0.N, (cfg0.win 2).flush t = true ∧ i ∈ ((cfg0.win 2).blk t).view.set := by
  have hi0 : (i 0).val < 1024 := (i 0).isLt
  have hi1 : (i 1).val < 64 := (i 1).isLt
  have hN : cfg0.N = 66 := Gen.N_0
  obtain ⟨t, hv⟩ : ∃ t : Fin cfg0.N, t.val = 33 * ((i 0).val / 512) + 32 :=
    ⟨⟨33 * ((i 0).val / 512) + 32, by omega⟩, rfl⟩
  obtain ⟨e0, e1⟩ := idx_facts2 t
  refine ⟨t, (Gen.flush0_2 t).mpr (by omega), ?_⟩
  rw [mem_blk2]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 64 ≤ (i 1).val ∧ (i 1).val < win0_2.index t (1 : Fin 2) * 64 + 64
    omega

/-- The same over the index type the pipeline's whole-array statement quantifies over. -/
theorem out_cover (c : Dev nD) : ∀ i : ((cfg0.win 2).arr.view.loc (c.tc : Thread nD τ)).2.ty.Idx,
    ∃ t : Fin cfg0.N, (cfg0.win 2).flush t = true ∧ i ∈ ((cfg0.win 2).blk t).view.set :=
  fun i => out_cover' i

end Cert.KernelIdeal.PoolBlocks

end
-- ==== Proof.PoolPrefix.lean ====
/-
  The contents of the augmented embedding table when the pooling region is entered. Before the region the program
  narrows the embedding table `Y` (100000 rows, 64 columns) to the 16-bit float type, which at the ideal values
  changes nothing; appends a 65th column holding the constant one; and pads the result with the float image of the
  integer zero, which is zero, to 101376 rows and 128 columns. Read at row `n` and lane `l` this is `Y n l` for
  `n < 100000` and `l < 64`, one for `n < 100000` and `l = 64`, and zero everywhere else: the augmented table of the
  specification.
-/
import proofs.«105519_j24464133718086_2_alg».proof.Proof.Gen.KernelIdeal.Frame
import proofs.«105519_j24464133718086_2_alg».proof.Proof.PoolSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.PoolPrefix

open Cert.KernelIdeal Cert.KernelIdeal.Gen
open Idealize.ShloMosaic Idealize.ShloMosaic.TcCoe Idealize.ShloMosaic.Tactic
open Idealize.ShloMosaic.ValueIdx
open Idealize.ShloMosaic.StableHlo
open Idealize.SL.Sem

/-- The table as the two stretches of host operations leave it, as a function of the embedding table `Y`: the
    narrowing, the column of ones appended, the padding with the float image of the integer zero. -/
abbrev prefixTerm (Y : S100000x64.Idx → EReal) : S101376x128.Idx → EReal :=
  pad S101376x128 ![0, 0] ![1376, 63] ![0, 0]
    (concatenate S100000x65 1
      [⟨S100000x64, (truncf (F := Ideal) .bf16 (Y : FVec Ideal S100000x64 .f32) bitsLt_bf16_f32 : FVec Ideal S100000x64 .bf16)⟩,
       ⟨S100000x1, (broadcastInDim S100000x1 ![] bcast_S_S100000x1 (constant (F := Ideal) S_ .bf16 0x3F80#16) : FVec Ideal S100000x1 .bf16)⟩]
      concatenates_S100000x64_S100000x1_S100000x65_d1 : FVec Ideal S100000x65 .bf16)
    (sitofp (F := Ideal) .bf16 (constantI S_ 32 0#32) : FVec Ideal S_ .bf16)
    pads_S100000x65_S101376x128_013760_0630 h_S_

/-- The padded table at the region's entry is the host operations' term over the embedding table as launched. -/
theorem v3_term (m : (ℓ : Loc nD τ sig) → Buf (Elt Ideal) ℓ) (c : Dev nD) :
    (Gen.V (F := Ideal) m c main_v3 : S101376x128.Idx → EReal)
      = prefixTerm (m ((c : Thread nD τ).loc main_arg5) : S100000x64.Idx → EReal) := by
  dsimp only [Gen.V, Gen.V0]
  simp only [Gen.hostOps0, Gen.hostOps0_1, List.flatten_cons, List.flatten_nil, List.append_nil, List.cons_append,
    List.nil_append]
  after_results
  rfl

/-! ## The table read at a row and a lane -/

/-- The column of ones: the scalar one broadcast to 100000 rows reads one at every index. -/
theorem ones_apply (i : S100000x1.Idx) :
    (broadcastInDim S100000x1 ![] bcast_S_S100000x1 (constant (F := Ideal) S_ .bf16 0x3F80#16) : FVec Ideal S100000x1 .bf16) i
      = (1 : EReal) := by
  rw [broadcastInDim_scalar_apply, constant_apply, Ideal.ofBits_one_bf16]

/-- The padding value: the float image of the integer zero is zero. -/
theorem padValue_apply (i : S_.Idx) :
    (sitofp (F := Ideal) .bf16 (constantI S_ 32 0#32) : FVec Ideal S_ .bf16) i = (0 : EReal) := by
  show ((((0#32 : BitVec 32).toInt : ℤ) : ℝ) : EReal) = 0
  simp

/-- The host operations' term read at row `n`, lane `l` is the augmented table of the specification. -/
theorem prefixTerm_apply (Y : S100000x64.Idx → EReal) (n : Fin 101376) (l : Fin 128) :
    prefixTerm Y (ix2 n l) = Cert.PoolSpec.yaug Y n l := by
  unfold Cert.PoolSpec.yaug
  by_cases hn : n.val < 100000
  · rw [dif_pos hn]
    by_cases hl : l.val < 64
    · -- inside the embedding table: the padded, augmented table reads the narrowed entry, which is the entry
      rw [dif_pos hl]
      refine (pad_apply_of_inside _ _ _ _ _ _ _ (ix2 n l)
        (ix2 (⟨n.val, hn⟩ : Fin 100000) (⟨l.val, by omega⟩ : Fin 65)) ?_).trans ?_
      · intro a
        match a with
        | ⟨0, _⟩ => show n.val = 0 + n.val * (0 + 1); omega
        | ⟨1, _⟩ => show l.val = 0 + l.val * (0 + 1); omega
      · refine (concatenate_pair_apply_left (t := S100000x65) (s₁ := S100000x64) (s₂ := S100000x1) 1 _ _
          concatenates_S100000x64_S100000x1_S100000x65_d1 _ rfl
          (ix2 (⟨n.val, hn⟩ : Fin 100000) (⟨l.val, hl⟩ : Fin 64)) ?_).trans rfl
        intro b
        match b with
        | ⟨0, _⟩ => rfl
        | ⟨1, _⟩ => rfl
    · rw [dif_neg hl]
      by_cases hl' : l.val = 64
      · -- the appended column: one
        rw [if_pos hl']
        refine (pad_apply_of_inside _ _ _ _ _ _ _ (ix2 n l)
          (ix2 (⟨n.val, hn⟩ : Fin 100000) (⟨l.val, by omega⟩ : Fin 65)) ?_).trans ?_
        · intro a
          match a with
          | ⟨0, _⟩ => show n.val = 0 + n.val * (0 + 1); omega
          | ⟨1, _⟩ => show l.val = 0 + l.val * (0 + 1); omega
        · refine (concatenate_pair_apply_right (t := S100000x65) (s₁ := S100000x64) (s₂ := S100000x1) 1 _ _
            concatenates_S100000x64_S100000x1_S100000x65_d1 _ rfl rfl
            (ix2 (⟨n.val, hn⟩ : Fin 100000) (0 : Fin 1)) ?_ ?_).trans (ones_apply _)
          · intro b hb
            match b, hb with
            | ⟨0, _⟩, _ => rfl
            | ⟨1, _⟩, hb => exact absurd rfl hb
          · show 0 + 64 = l.val
            omega
      · -- past the appended column: the padding value, zero
        rw [if_neg hl']
        refine (pad_apply_of_not_inside _ _ _ _ _ _ _ (ix2 n l) (1 : Fin 2) ?_).trans (padValue_apply _)
        show ¬(0 ≤ l.val ∧ (l.val - 0) % (0 + 1) = 0 ∧ (l.val - 0) / (0 + 1) < 65)
        omega
  · -- past the last row of the table: the padding value, zero
    rw [dif_neg hn]
    refine (pad_apply_of_not_inside _ _ _ _ _ _ _ (ix2 n l) (0 : Fin 2) ?_).trans (padValue_apply _)
    show ¬(0 ≤ n.val ∧ (n.val - 0) % (0 + 1) = 0 ∧ (n.val - 0) / (0 + 1) < 100000)
    omega

/-- The padded table at the region's entry, read at row `n` and lane `l`, is the specification's augmented table
    of the embedding table as launched. -/
theorem yaug_apply (m : (ℓ : Loc nD τ sig) → Buf (Elt Ideal) ℓ) (c : Dev nD) (n : Fin 101376) (l : Fin 128) :
    (Gen.V (F := Ideal) m c main_v3 : S101376x128.Idx → EReal) (ix2 n l)
      = Cert.PoolSpec.yaug (m ((c : Thread nD τ).loc main_arg5) : Cert.PoolSpec.SEmb.Idx → EReal) n l := by
  rw [v3_term m c]
  exact prefixTerm_apply _ n l

/-- No host operation before the region writes the mask: the region finds it as launched. -/
theorem pos_term (m : (ℓ : Loc nD τ sig) → Buf (Elt Ideal) ℓ) (c : Dev nD) :
    Gen.V (F := Ideal) m c main_arg2 = m ((c : Thread nD τ).loc main_arg2) := Gen.V_main_arg2 m c

end Cert.KernelIdeal.PoolPrefix

end
-- ==== Proof.PoolAlgebra.lean ====
/-
  From the kernel's arrangement of the sum to the reference's. The kernel's running sum for batch row `b` and lane `l`
  after its 33 column blocks is the sum, block by block, of the terms mask(b, n) · table(n, l) over the padded range
  n < 101376, the mask extended by zero from 100000 on and the table the augmented one. Re-blocked it is one sum over
  101376 indices; the terms from 100000 on vanish (a zero mask times anything is zero on the extended reals); on the
  first 64 lanes the surviving terms are mask · Y and on lane 64 they are the mask itself. The quotient of the two is
  the pooled embedding.
-/
import proofs.«105519_j24464133718086_2_alg».proof.Proof.PoolSpec

noncomputable section

open scoped BigOperators

namespace Cert.PoolSpec

open Idealize.ShloMosaic Idealize.ShloMosaic.ValueIdx

/-- The augmented table with its row a natural number: zero past the padded table. -/
def yaugN (Y : SEmb.Idx → EReal) (n : ℕ) (l : Fin 128) : EReal := if h : n < 101376 then yaug Y ⟨n, h⟩ l else 0

/-- One term of the kernel's sum: the padded mask of row `b` at item `n` times the augmented table at (n, l). -/
def addend (pos : SPos.Idx → BitVec 32) (Y : SEmb.Idx → EReal) (b : Fin 1024) (l : Fin 128) (n : ℕ) : EReal :=
  indPad pos b n * yaugN Y n l

theorem addend_outside (pos : SPos.Idx → BitVec 32) (Y : SEmb.Idx → EReal) (b : Fin 1024) (l : Fin 128) (n : ℕ)
    (h : 100000 ≤ n) : addend pos Y b l n = 0 := by
  unfold addend indPad; rw [dif_neg (by omega), zero_mul]

/-- The 33 blocks' sums together are the sum over the items. -/
theorem blocks_sum (pos : SPos.Idx → BitVec 32) (Y : SEmb.Idx → EReal) (b : Fin 1024) (l : Fin 128) :
    ∑ s ∈ Finset.range 33, ∑ j : Fin 3072, addend pos Y b l (3072 * s + j.val)
      = ∑ n : Fin 100000, addend pos Y b l n.val := by
  rw [Finset.sum_range (fun s => ∑ j : Fin 3072, addend pos Y b l (3072 * s + j.val)),
    sum_blocks (addend pos Y b l), sum_trunc (addend pos Y b l) (addend_outside pos Y b l)]

theorem addend_emb (pos : SPos.Idx → BitVec 32) (Y : SEmb.Idx → EReal) (b : Fin 1024) (d : Fin 64) (n : Fin 100000) :
    addend pos Y b ⟨d.val, by omega⟩ n.val = ind (pos (ix2 b n)) * Y (ix2 n d) := by
  unfold addend indPad yaugN yaug
  rw [dif_pos n.isLt, dif_pos (by have := n.isLt; omega), dif_pos n.isLt, dif_pos d.isLt]

theorem addend_count (pos : SPos.Idx → BitVec 32) (Y : SEmb.Idx → EReal) (b : Fin 1024) (n : Fin 100000) :
    addend pos Y b ⟨64, by decide⟩ n.val = ind (pos (ix2 b n)) := by
  unfold addend indPad yaugN yaug
  rw [dif_pos n.isLt, dif_pos (by have := n.isLt; omega), dif_pos n.isLt, dif_neg (by decide), if_pos rfl, mul_one]

/-- The kernel's quotient is the pooled embedding. -/
theorem pooled_of_blocks (pos : SPos.Idx → BitVec 32) (Y : SEmb.Idx → EReal) (b : Fin 1024) (d : Fin 64) :
    Ideal.div (∑ s ∈ Finset.range 33, ∑ j : Fin 3072, addend pos Y b ⟨d.val, by omega⟩ (3072 * s + j.val))
        (∑ s ∈ Finset.range 33, ∑ j : Fin 3072, addend pos Y b ⟨64, by decide⟩ (3072 * s + j.val))
      = pooledAt pos Y b d := by
  rw [blocks_sum, blocks_sum]
  unfold pooledAt
  rw [Finset.sum_congr rfl fun n _ => addend_emb pos Y b d n, Finset.sum_congr rfl fun n _ => addend_count pos Y b n]

end Cert.PoolSpec

end
-- ==== Proof.PoolRef.lean ====
/-
  The reference side of the masked mean-pool. The reference program forms the mask (one where the position word is
  positive, read as a signed integer), the row counts of the mask, and the quotient of the product of the mask with the
  embedding table by the counts; the rest of the program adds gathered rows and biases. Read one element at a time, the
  quotient is the pooled embedding of the specification: the sum of the selected rows over their number. The rest of the
  program is carried as one function of the pooled array, never opened.
-/
import proofs.«105519_j24464133718086_2_alg».proof.Proof.Gen.ReferenceIdeal.Read
import proofs.«105519_j24464133718086_2_alg».proof.Proof.PoolSpec

noncomputable section

open scoped BigOperators

namespace Cert.PoolRef

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-- A one-bit word read as an unsigned integer is one when the bit is set and zero when it is clear. -/
theorem uitofp_bit (c : BitVec 1) :
    FloatOps.uitofp (F := Ideal) .f32 c = if c = 1#1 then (1 : EReal) else 0 := by
  rcases BitVec.eq_zero_or_eq_one c with h | h
  · subst h
    show (((0#1 : BitVec 1).toNat : ℝ) : EReal) = _
    simp
  · subst h
    show (((1#1 : BitVec 1).toNat : ℝ) : EReal) = _
    simp

/-- The mask entry of a position word is the specification's indicator of a positive word. -/
theorem mask_eq (w : BitVec 32) :
    FloatOps.uitofp (F := Ideal) .f32 (IntOp.cmpi .sgt w 0#32) = Cert.PoolSpec.ind w := by
  unfold Cert.PoolSpec.ind
  exact uitofp_bit _

/-- The left operand's index of the product at row `b`, column `d`, term `k`: row `b`, column `k`. -/
theorem lidx_eq (b : Fin 1024) (d : Fin 64) (k : Fin 100000) : lidx_main_v5 (ix2 b d) k = ix2 b k := by
  funext a; match a with | ⟨0, _⟩ => rfl | ⟨1, _⟩ => rfl

/-- The right operand's index of the product at row `b`, column `d`, term `k`: row `k`, column `d`. -/
theorem ridx_eq (b : Fin 1024) (d : Fin 64) (k : Fin 100000) : ridx_main_v5 (ix2 b d) k = ix2 k d := by
  funext a; match a with | ⟨0, _⟩ => rfl | ⟨1, _⟩ => rfl

/-- The count read at row `b`, column `d` of the quotient sums the mask's row `b`. -/
theorem cidx_eq (b : Fin 1024) (d : Fin 64) (k : Fin 100000) :
    idx_main_v3 (idx_main_v4 (idx_main_v6 (ix2 b d))) k = ix2 b k := by
  funext a; match a with | ⟨0, _⟩ => rfl | ⟨1, _⟩ => rfl

/-- The reference's quotient, read at row `b` and column `d`, is the pooled embedding. -/
theorem ref_pooled (x2 : (⟨Cert.ReferenceIdeal.S1024x100000, .i32⟩ : BufTy).Contents (Elt Ideal))
    (x5 : (⟨Cert.ReferenceIdeal.S100000x64, .f32⟩ : BufTy).Contents (Elt Ideal)) (b : Fin 1024) (d : Fin 64) :
    Cert.ReferenceIdeal.Read.val_main_v7 (F := Ideal) x2 x5 (Idealize.ShloMosaic.ValueIdx.ix2 b d)
      = Cert.PoolSpec.pooledAt x2 x5 b d := by
  have hv2 : ∀ j : S1024x100000.Idx, val_main_v2 (F := Ideal) x2 j = Cert.PoolSpec.ind (x2 j) := fun j => by
    rw [val_main_v2_apply, val_main_v1_apply, val_main_v0_apply, val_main_c_apply]
    exact mask_eq _
  rw [val_main_v7_apply, val_main_v5_apply, val_main_v6_apply, val_main_v4_apply, val_main_v3_apply,
    val_main_cst_apply]
  unfold Cert.PoolSpec.pooledAt
  show Ideal.div _ _ = Ideal.div _ _
  refine congrArg₂ Ideal.div ?_ ?_
  · refine Finset.sum_congr rfl fun k _ => ?_
    rw [hv2, lidx_eq, ridx_eq]
  · show Ideal.ofBits .f32 0x00000000#32 + _ = _
    rw [Ideal.ofBits_zero_f32, zero_add]
    refine Finset.sum_congr rfl fun k _ => ?_
    rw [hv2, cidx_eq]

/-- The same, for the whole array: the quotient is the pooled embedding at each index's two coordinates. -/
theorem ref_pooled_fun (x2 : (⟨Cert.ReferenceIdeal.S1024x100000, .i32⟩ : BufTy).Contents (Elt Ideal))
    (x5 : (⟨Cert.ReferenceIdeal.S100000x64, .f32⟩ : BufTy).Contents (Elt Ideal)) :
    Cert.ReferenceIdeal.Read.val_main_v7 (F := Ideal) x2 x5
      = fun i : S1024x64.Idx => Cert.PoolSpec.pooledAt x2 x5 (i 0) (i 1) :=
  funext fun i => (congrArg (val_main_v7 (F := Ideal) x2 x5) (eq_ix2 i)).trans (ref_pooled x2 x5 (i 0) (i 1))

/-- Everything the reference does after the quotient, as one function of the pooled array `p` and of the other
    arguments: the two embedding rows gathered at the (wrapped) user and item numbers, the sum over the columns of
    (pooled + user row) · item row, the two gathered biases and the global bias. For any float values. -/
def tailF {F : FTy → Type} [FloatOps F] (p : (⟨S1024x64, .f32⟩ : BufTy).Contents (Elt F))
    (x0 x1 : (⟨S1024, .i32⟩ : BufTy).Contents (Elt F)) (x3 x4 : (⟨S100000x64, .f32⟩ : BufTy).Contents (Elt F))
    (x6 x7 : (⟨S100000x1, .f32⟩ : BufTy).Contents (Elt F)) (x8 : (⟨S_, .f32⟩ : BufTy).Contents (Elt F)) :
    (⟨S1024, .f32⟩ : BufTy).Contents (Elt F) :=
  addf (addf (addf (Host.reduceAdd (mulf (addf p (Host.gather gather_S100000x64_S1024x1_S1024x64_1_0_n_n_0_1_164 (x3) (broadcastInDim S1024x1 ![0] bcast_S1024_S1024x1_0 (select (cmpi .slt (x0) (broadcastInDim S1024 ![] bcast_S_S1024 (constantI S_ 32 0#32))) (addi (x0) (broadcastInDim S1024 ![] bcast_S_S1024 (constantI S_ 32 100000#32))) (x0))))) (Host.gather gather_S100000x64_S1024x1_S1024x64_1_0_n_n_0_1_164 (x4) (broadcastInDim S1024x1 ![0] bcast_S1024_S1024x1_0 (select (cmpi .slt (x1) (broadcastInDim S1024 ![] bcast_S_S1024 (constantI S_ 32 0#32))) (addi (x1) (broadcastInDim S1024 ![] bcast_S_S1024 (constantI S_ 32 100000#32))) (x1))))) (constant S_ .f32 0x00000000#32) reducesTo_S1024x64_S1024_d1 h_S_) (Host.gather gather_S100000x1_S1024x2_S1024_n_01_n_n_01_1_11 (x6) (concatenate S1024x2 1 [⟨S1024x1, (broadcastInDim S1024x1 ![0] bcast_S1024_S1024x1_0 (select (cmpi .slt (x0) (broadcastInDim S1024 ![] bcast_S_S1024 (constantI S_ 32 0#32))) (addi (x0) (broadcastInDim S1024 ![] bcast_S_S1024 (constantI S_ 32 100000#32))) (x0)))⟩, ⟨S1024x1, (broadcastInDim S1024x1 ![0] bcast_S1024_S1024x1_0 (id (broadcastInDim S1024 ![] bcast_S_S1024 (constantI S_ 32 0#32))))⟩] concatenates_S1024x1_S1024x1_S1024x2_d1))) (Host.gather gather_S100000x1_S1024x2_S1024_n_01_n_n_01_1_11 (x7) (concatenate S1024x2 1 [⟨S1024x1, (broadcastInDim S1024x1 ![0] bcast_S1024_S1024x1_0 (select (cmpi .slt (x1) (broadcastInDim S1024 ![] bcast_S_S1024 (constantI S_ 32 0#32))) (addi (x1) (broadcastInDim S1024 ![] bcast_S_S1024 (constantI S_ 32 100000#32))) (x1)))⟩, ⟨S1024x1, (broadcastInDim S1024x1 ![0] bcast_S1024_S1024x1_0 (id (broadcastInDim S1024 ![] bcast_S_S1024 (constantI S_ 32 0#32))))⟩] concatenates_S1024x1_S1024x1_S1024x2_d1))) (broadcastInDim S1024 ![] bcast_S_S1024 (x8))

/-- The same function at the extended reals. -/
def tail (p : (⟨Cert.ReferenceIdeal.S1024x64, .f32⟩ : BufTy).Contents (Elt Ideal))
    (x0 x1 : (⟨S1024, .i32⟩ : BufTy).Contents (Elt Ideal)) (x3 x4 : (⟨S100000x64, .f32⟩ : BufTy).Contents (Elt Ideal))
    (x6 x7 : (⟨S100000x1, .f32⟩ : BufTy).Contents (Elt Ideal)) (x8 : (⟨S_, .f32⟩ : BufTy).Contents (Elt Ideal)) :
    (⟨S1024, .f32⟩ : BufTy).Contents (Elt Ideal) :=
  tailF (F := Ideal) p x0 x1 x3 x4 x6 x7 x8

set_option maxRecDepth 8192 in
/-- The reference's run, with its result stated through the quotient and the rest of the program: every weakly fair
    execution terminates with the result at the rest of the program applied to the quotient, the arguments unchanged. -/
theorem run_tail (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = tail (val_main_v7 (F := Ideal) (m ((c.tc : Thread nD τ).loc main_arg2)) (m ((c.tc : Thread nD τ).loc main_arg5)))
          (m ((c.tc : Thread nD τ).loc main_arg0)) (m ((c.tc : Thread nD τ).loc main_arg1)) (m ((c.tc : Thread nD τ).loc main_arg3)) (m ((c.tc : Thread nD τ).loc main_arg4))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨(h c).1.trans rfl, (h c).2⟩) (Cert.ReferenceIdeal.Value.run (F := Ideal) m ρ)

end Cert.PoolRef

end
-- ==== Proof.PoolTail.lean ====
/-
  The kernel program's last lines. After its region the kernel program runs the same lines as the reference does after
  its quotient: the two embedding rows gathered at the (wrapped) user and item numbers, the sum over the columns of
  (pooled + user row) · item row, the two gathered biases and the global bias. Read back from any buffer contents, the
  result of those lines is the reference's closing function applied to the region's output array and to the argument
  arrays; after the region, the output array is what the region leaves and every argument read here is as launched.
-/
import proofs.«105519_j24464133718086_2_alg».proof.Proof.Gen.KernelIdeal.Frame
import proofs.«105519_j24464133718086_2_alg».proof.Proof.PoolRef
import Idealize.ShloMosaic.Lib.StableHlo.Run

set_option maxRecDepth 16384

noncomputable section

namespace Cert.KernelIdeal.PoolTail

open Cert.KernelIdeal Cert.KernelIdeal.Gen
open Idealize.ShloMosaic Idealize.ShloMosaic.TcCoe Idealize.SL.Sem
open Idealize.ShloMosaic.Pipeline (Dat)

/-- From ANY buffer contents `W`, the lines after the region leave in the result buffer the reference's closing function
    of `W`'s output array and argument arrays (named here by what they are equal to). -/
theorem after_tail (W : Valuation τ sig (Elt Ideal))
    (p : (⟨S1024x64, .f32⟩ : BufTy).Contents (Elt Ideal)) (x0 x1 : (⟨S1024, .i32⟩ : BufTy).Contents (Elt Ideal))
    (x3 x4 : (⟨S100000x64, .f32⟩ : BufTy).Contents (Elt Ideal)) (x6 x7 : (⟨S100000x1, .f32⟩ : BufTy).Contents (Elt Ideal))
    (x8 : (⟨S_, .f32⟩ : BufTy).Contents (Elt Ideal))
    (hp : W (Proc.devRef .tc main_v4) = p) (h0 : W (Proc.devRef .tc main_arg0) = x0) (h1 : W (Proc.devRef .tc main_arg1) = x1)
    (h3 : W (Proc.devRef .tc main_arg3) = x3) (h4 : W (Proc.devRef .tc main_arg4) = x4)
    (h6 : W (Proc.devRef .tc main_arg6) = x6) (h7 : W (Proc.devRef .tc main_arg7) = x7)
    (h8 : W (Proc.devRef .tc main_arg8) = x8) :
    StableHlo.after (hostOps1 (F := Ideal)) W (Proc.devRef .tc main_v47) = Cert.PoolRef.tail p x0 x1 x3 x4 x6 x7 x8 := by
  subst hp h0 h1 h3 h4 h6 h7 h8
  after_results_simp
  rfl

/-- The kernel program's result, for any proof data: the reference's closing function of the output array as the region
    leaves it and of the arguments as launched. -/
theorem kernel_tail (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (Gen.V0 m) [Gen.hostOps1] c main_v47
      = Cert.PoolRef.tail ((dats 0 c).arrAt 2 cfg0.N) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg6))
          (m ((c.tc : Thread nD τ).loc main_arg7)) (m ((c.tc : Thread nD τ).loc main_arg8)) := by
  unfold Pipeline.afterTail₀
  show StableHlo.after Gen.hostOps1 _ (Proc.devRef .tc main_v47) = _
  exact after_tail _ _ _ _ _ _ _ _ _
    (Pipeline.withArrays_arr spec0 launch0.win.arr_inj c _ _ 2)
    ((Pipeline.withArrays_of_ne _ c (V0 m c) _ main_arg0 (by exact (by decide : ∀ w, Pipeline.arrRef spec0 w ≠ main_arg0))).trans (V_main_arg0 m c))
    ((Pipeline.withArrays_of_ne _ c (V0 m c) _ main_arg1 (by exact (by decide : ∀ w, Pipeline.arrRef spec0 w ≠ main_arg1))).trans (V_main_arg1 m c))
    ((Pipeline.withArrays_of_ne _ c (V0 m c) _ main_arg3 (by exact (by decide : ∀ w, Pipeline.arrRef spec0 w ≠ main_arg3))).trans (V_main_arg3 m c))
    ((Pipeline.withArrays_of_ne _ c (V0 m c) _ main_arg4 (by exact (by decide : ∀ w, Pipeline.arrRef spec0 w ≠ main_arg4))).trans (V_main_arg4 m c))
    ((Pipeline.withArrays_of_ne _ c (V0 m c) _ main_arg6 (by exact (by decide : ∀ w, Pipeline.arrRef spec0 w ≠ main_arg6))).trans (V_main_arg6 m c))
    ((Pipeline.withArrays_of_ne _ c (V0 m c) _ main_arg7 (by exact (by decide : ∀ w, Pipeline.arrRef spec0 w ≠ main_arg7))).trans (V_main_arg7 m c))
    ((Pipeline.withArrays_of_ne _ c (V0 m c) _ main_arg8 (by exact (by decide : ∀ w, Pipeline.arrRef spec0 w ≠ main_arg8))).trans (V_main_arg8 m c))

end Cert.KernelIdeal.PoolTail

end
-- ==== Proof.PoolValue.lean ====
/-
  What the pooling kernel computes, at the ideal instance: after column block k of a row block, the scratch holds at
  (r, l) the sum over the column blocks so far of mask(b, n) · table(n, l) over the block's 3072 items n, where b is the
  batch row of r, the mask is extended by zero past the last item and the table is the augmented one. The proof reads
  each point's addend off the blocks the point is handed (the first operand's block through the array `pos`, the
  second's through the padded table), and adds them up by induction on the position, the three control cases giving
  the base (a first column block adds to zero) and the two kinds of step.
-/
import proofs.«105519_j24464133718086_2_alg».proof.Proof.PoolDataI
import proofs.«105519_j24464133718086_2_alg».proof.Proof.PoolPay
import proofs.«105519_j24464133718086_2_alg».proof.Proof.PoolBlocks
import proofs.«105519_j24464133718086_2_alg».proof.Proof.PoolPrefix
import proofs.«105519_j24464133718086_2_alg».proof.Proof.PoolAlgebra
import proofs.«105519_j24464133718086_2_alg».proof.Proof.PoolTail

set_option maxRecDepth 16384

noncomputable section

open scoped BigOperators

namespace Cert.KernelIdeal.PoolValue

open Cert.KernelIdeal Cert.KernelIdeal.Gen Cert.KernelIdeal.Pool Cert.PoolSpec
open Cert.KernelIdeal.PoolPay Cert.KernelIdeal.PoolBlocks Cert.KernelIdeal.PoolPrefix
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The batch row of row `r` of the row block of position `n` (reduced modulo the number of rows so that it needs
    no bound; on the grid the reduction does nothing). -/
def brow (n : ℕ) (r : Fin 512) : Fin 1024 := ⟨(512 * (n / 33) + r.val) % 1024, Nat.mod_lt _ (by decide)⟩

theorem brow_eq (n : ℕ) (hn : n < 66) (r : Fin 512) (hp : 512 * (n / 33) + r.val < 1024) :
    (⟨512 * (n / 33) + r.val, hp⟩ : Fin 1024) = brow n r := Fin.ext (Nat.mod_eq_of_lt hp).symm

/-- The launch contents of `pos` and of `Y`. -/
abbrev posA : SPos.Idx → BitVec 32 := m ((c : Thread nD τ).loc main_arg2)
abbrev embA : SEmb.Idx → EReal := m ((c : Thread nD τ).loc main_arg5)

/-- One item of one point: the mask of the staged word times the staged table entry is the kernel's term. -/
theorem point_term (t : Fin cfg0.N) (r : Fin 512) (l : Fin 128) (j : Fin 3072) (hlt : 3072 * (t.val % 33) + j.val < 100000) :
    ind (posBuf (F := Ideal) m c t (ix2 r j)) * iblk (F := Ideal) m c 1 t (ix2 j l)
      = addend (posA m c) (embA m c) (brow t.val r) l (3072 * (t.val % 33) + j.val) := by
  have hN : t.val < 66 := lt_of_lt_of_eq t.isLt N_0
  rw [show posBuf (F := Ideal) m c t = win0_0.fill (grid0.coords t) (fun _ => (0#32 : BitVec 32)) (iblk m c 0 t) from rfl,
    posbuf_apply, dif_pos hlt, yblk_apply, yaug_apply, pos_term]
  unfold addend indPad yaugN
  rw [dif_pos hlt, dif_pos (by omega)]
  rw [brow_eq t.val hN r]

/-- The addend of a point away from the last column block. -/
theorem point_sum (t : Fin cfg0.N) (h1 : ¬ t.val % 33 = 32) (r : Fin 512) (l : Fin 128) :
    ∑ j : Fin 3072, ind (posBuf (F := Ideal) m c t (ix2 r j)) * iblk (F := Ideal) m c 1 t (ix2 j l)
      = ∑ j : Fin 3072, addend (posA m c) (embA m c) (brow t.val r) l (3072 * (t.val % 33) + j.val) :=
  Finset.sum_congr rfl fun j _ => point_term m c t r l j (by have := j.isLt; have := Nat.mod_lt t.val (by decide : 0 < 33); omega)

/-- The addend of a last column block: the columns past the array's end contribute zero on both sides. -/
theorem point_sum_last (t : Fin cfg0.N) (h1 : t.val % 33 = 32) (r : Fin 512) (l : Fin 128) :
    ∑ j : Fin 3072, (if 98304 + j.val < 100000 then ind (posBuf (F := Ideal) m c t (ix2 r j)) else 0) * iblk (F := Ideal) m c 1 t (ix2 j l)
      = ∑ j : Fin 3072, addend (posA m c) (embA m c) (brow t.val r) l (3072 * (t.val % 33) + j.val) :=
  Finset.sum_congr rfl fun j _ => by
    by_cases h : 98304 + j.val < 100000
    · rw [if_pos h]; exact point_term m c t r l j (by omega)
    · rw [if_neg h, zero_mul]; exact (addend_outside _ _ _ _ _ (by omega)).symm

theorem col_last : ∀ t : Fin cfg0.N, t.val % 33 = 32 → ((grid0.coords t) 1).val = 32 := by decide +kernel

/-- THE RUNNING SUM in closed form. -/
theorem sumAt_closed : ∀ (n : ℕ) (h : n < cfg0.N) (r : Fin 512) (l : Fin 128),
    sumAt (F := Ideal) m c n h (ix2 r l)
      = ∑ s ∈ Finset.range (n % 33 + 1), ∑ j : Fin 3072, addend (posA m c) (embA m c) (brow n r) l (3072 * s + j.val)
  | 0, h, r, l => by
    rw [sumAt_first m c ⟨0, h⟩ rfl, pay3_apply, pay1_apply, zero_add, point_sum m c ⟨0, h⟩ (show ¬ (0 % 33 = 32) by decide)]
    show ∑ j : Fin 3072, addend (posA m c) (embA m c) (brow 0 r) l (3072 * 0 + j.val) = ∑ s ∈ Finset.range 1, _
    rw [Finset.sum_range_one]
  | n + 1, h, r, l => by
    have hN : n + 1 < 66 := lt_of_lt_of_eq h N_0
    by_cases h0 : (n + 1) % 33 = 0
    · rw [sumAt_first m c ⟨n + 1, h⟩ h0, pay3_apply, pay1_apply, zero_add, point_sum m c ⟨n + 1, h⟩ (by show ¬ (n + 1) % 33 = 32; omega)]
      show _ = ∑ s ∈ Finset.range ((n + 1) % 33 + 1), _
      rw [h0, Finset.sum_range_one]
    · have hmod : (n + 1) % 33 = n % 33 + 1 := by omega
      have hdiv : (n + 1) / 33 = n / 33 := by omega
      have hb : brow (n + 1) r = brow n r :=
        Fin.ext (by show (512 * ((n + 1) / 33) + r.val) % 1024 = (512 * (n / 33) + r.val) % 1024; rw [hdiv])
      have ih := sumAt_closed n (Nat.lt_of_succ_lt h) r l
      rw [hmod, Finset.sum_range_succ _ (n % 33 + 1), hb, ← ih, ← hmod, ← hb]
      by_cases h1 : (n + 1) % 33 = 32
      · rw [show sumAt (F := Ideal) m c (n + 1) h = k0_pay2 (grid0.coords ⟨n + 1, h⟩) (posBuf m c ⟨n + 1, h⟩) (sumAt m c n (Nat.lt_of_succ_lt h)) (iblk m c 1 ⟨n + 1, h⟩) from
            (if_neg h0).trans (if_pos h1),
          pay2_apply _ (col_last ⟨n + 1, h⟩ h1), point_sum_last m c ⟨n + 1, h⟩ h1]
      · rw [show sumAt (F := Ideal) m c (n + 1) h = k0_pay3 (posBuf m c ⟨n + 1, h⟩) (sumAt m c n (Nat.lt_of_succ_lt h)) (iblk m c 1 ⟨n + 1, h⟩) from
            (if_neg h0).trans (if_neg h1),
          pay3_apply, point_sum m c ⟨n + 1, h⟩ h1]

/-! ## The output array after the run -/

/-- The pooled embeddings as one array. -/
def pooledArr : Buf (Elt Ideal) ((cfg0.win 2).arr.view.loc (c.tc : Thread nD τ)) :=
  fun i => pooledAt (posA m c) (embA m c) (i 0) (i 1)

/-- What a last column block leaves in the output's buffer, at an index: the pooled embedding of the row. -/
theorem out_apply (t : Fin cfg0.N) (h1 : t.val % 33 = 32) (r : Fin 512) (d : Fin 64) :
    outAt (F := Ideal) m c t (ix2 r d) = pooledAt (posA m c) (embA m c) (brow t.val r) d := by
  unfold outAt
  rw [pay4_apply, sumAt_closed, sumAt_closed, h1]
  exact pooled_of_blocks (posA m c) (embA m c) (brow t.val r) d

/-- What a point that writes back writes is its block of the pooled array. -/
theorem flushed_eq (t : Fin cfg0.N) (hf : (cfg0.win 2).flush t = true) :
    (dats (F := Ideal) m 0 c).flushed 2 t = ((cfg0.win 2).blk t).view.read (Elt Ideal) (pooledArr m c) := by
  have h1 : t.val % 33 = 32 := (flush0_2 t).mp hf
  have hN : t.val < 66 := lt_of_lt_of_eq t.isLt N_0
  show (cfg0.win 2).cut (grid0.coords t) ((dats (F := Ideal) m 0 c).after 2 t) = _
  rw [after2]
  funext y
  obtain ⟨r, d, rfl⟩ : ∃ (r : Fin 512) (d : Fin 64), y = ix2 r d :=
    ⟨⟨(y 0).val, (y 0).isLt⟩, ⟨(y 1).val, (y 1).isLt⟩, funext fun a => by match a with | ⟨0, _⟩ => rfl | ⟨1, _⟩ => rfl⟩
  show outAt (F := Ideal) m c t (ix2 r d) = _
  rw [out_apply m c t h1, out_read]
  show _ = pooledAt (posA m c) (embA m c) _ _
  rw [brow_eq t.val hN]
  rfl

/-- THE OUTPUT ARRAY after the run is the pooled array. -/
theorem final (c : Dev nD) : (dats (F := Ideal) m 0 c).arrAt 2 cfg0.N = pooledArr m c :=
  (dats (F := Ideal) m 0 c).arrAt_eq_of_cover 2 (pooledArr m c) (fun t hf => flushed_eq m c t hf) (out_cover c)

/-! ## The program's run, read -/

/-- The kernel program ends with its result at the shared epilogue of the pooled array, its arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v47)
          = Cert.PoolRef.tail (pooledArr m c) (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v47 (Pipeline.mem_restRefs_of main_v47 (by decide) (by decide))).trans
        ((Cert.KernelIdeal.PoolTail.kernel_tail m (dats (F := Ideal) m) c).trans (by rw [final m c])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans ((((dats (F := Ideal) m) 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main (F := Ideal) m ρ)

end Cert.KernelIdeal.PoolValue

end
-- ==== Proof.lean ====
/-
  The pooled-embedding score, kernel against reference, over the extended reals.

  Both programs compute, for each batch row, the mean of the rows of `Y` selected by the positive entries of the row's
  `pos`, and feed it to the same epilogue of gathers, a product, a row sum and three additions. The reference takes the
  mask's row sum and its matrix product with `Y` and divides. The kernel appends a column of ones to `Y` (so that the
  count is a 65th column of the same product), pads the table with zeros to 33 blocks of 3072 rows, and walks each row
  block of `pos` through the 33 column blocks, adding each block's product into a scratch buffer; at the last column
  block it masks off the columns past the array's end, and divides the first 64 columns of the sum by the 65th. At the
  ideal instance the two agree because a sum over 33 · 3072 indices is the sum of its blocks' sums and the terms past
  item 100000 are zero times something: only commutativity and associativity of addition on the extended reals, so the
  finiteness of the inputs is never used, and the junk value of 0/0 is the same on both sides.

  The three frames: the two kernel programs' by the body run at each of the three control cases of the grid (first,
  inner and last column block) under an invariant that carries the scratch from point to point; the reference's is
  its run with the result dropped. The ideal pass rewrote nothing, so the idealization claim is trivial.
-/
import proofs.«105519_j24464133718086_2_alg».proof.Defs
import proofs.«105519_j24464133718086_2_alg».proof.Proof.Gen.Kernel
import proofs.«105519_j24464133718086_2_alg».proof.Proof.Gen.KernelIdeal
import proofs.«105519_j24464133718086_2_alg».proof.Proof.Gen.ReferenceIdeal
import proofs.«105519_j24464133718086_2_alg».proof.Proof.Gen.Pre_finite_inputs
import proofs.«105519_j24464133718086_2_alg».proof.Proof.PoolDataK
import proofs.«105519_j24464133718086_2_alg».proof.Proof.PoolValue
import proofs.«105519_j24464133718086_2_alg».proof.Proof.PoolRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Pool.frame (F := Bits) m ρ
theorem frame_ki : Cert.frame_KernelIdeal := fun m ρ _ => Cert.KernelIdeal.Pool.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the shared epilogue of the pooled array: the
    kernel by its run read off the frame, the reference because its quotient is the pooled array index by index. -/
theorem algebraic : Cert.algebraic_KernelIdeal_ReferenceIdeal := by
  intro m ρ m' ρ' _ hagree
  refine ⟨_, Cert.KernelIdeal.PoolValue.run m ρ, ?_⟩
  refine (θ_run Cert.ReferenceIdeal.defs _ _).mono (fun _ h c => ⟨(h c).1.trans ?_, (h c).2⟩) (Cert.PoolRef.run_tail m' ρ')
  obtain ⟨a0, a1, a2, a3, a4, a5, a6, a7, a8⟩ := hagree c
  rw [a0, a1, a2, a3, a4, a5, a6, a7, a8, Cert.PoolRef.ref_pooled_fun]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
